-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512x64x2048 : Shape := ⟨3, ![512, 64, 2048]⟩
abbrev S512x64x7 : Shape := ⟨3, ![512, 64, 7]⟩
abbrev S512x64 : Shape := ⟨2, ![512, 64]⟩
abbrev S2048x1024 : Shape := ⟨2, ![2048, 1024]⟩
abbrev S1024 : Shape := ⟨1, ![1024]⟩
abbrev S_ : Shape := ⟨0, ![]⟩

class Facts : Prop where
  bcast_S_S512x64x2048 : S_.BroadcastsInDim S512x64x2048 (![] : Fin 0 → Fin S512x64x2048.rank)
  reducesTo_S512x64x2048_S_d0_1_2 : S512x64x2048.ReducesTo [0, 1, 2] S_
  h_S_ : 0 < S_.numel
  bcast_S_S512x64x7 : S_.BroadcastsInDim S512x64x7 (![] : Fin 0 → Fin S512x64x7.rank)
  reducesTo_S512x64x7_S_d0_1_2 : S512x64x7.ReducesTo [0, 1, 2] S_
  bcast_S_S2048x1024 : S_.BroadcastsInDim S2048x1024 (![] : Fin 0 → Fin S2048x1024.rank)
  reducesTo_S2048x1024_S_d0_1 : S2048x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg6 : FVec F S1024 .f32) (main_arg7 : FVec F S1024 .f32) (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  let main_v19 : FVec F S1024 .f32 := Host.absf main_arg6
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024 .f32 := Host.absf main_arg7
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  main_v28

def fn {F : FTy → Type} [FloatOps F] (main_arg0 : FVec F S512x64x2048 .f32) (main_arg1 : FVec F S512x64x7 .f32) (main_arg2 : IVec S512x64 32) (main_arg3 : IVec S512x64 32) (main_arg4 : FVec F S2048x1024 .f32) (main_arg5 : FVec F S1024 .f32) (main_arg6 : FVec F S1024 .f32) (main_arg7 : FVec F S1024 .f32) : IVec S_ 1 :=
  let main_v0 : FVec F S512x64x2048 .f32 := Host.absf main_arg0
  let main_cst : FVec F S_ .f32 := constant S_ .f32 0x7F800000#32
  let main_v1 : FVec F S512x64x2048 .f32 := broadcastInDim S512x64x2048 ![] bcast_S_S512x64x2048 main_cst
  let main_v2 : IVec S512x64x2048 1 := cmpf .olt main_v0 main_v1
  let main_c : IVec S_ 1 := constantI S_ 1 1#1
  let main_v3 : IVec S_ 1 := (fun x v => Host.reduce IntOp.andi x v reducesTo_S512x64x2048_S_d0_1_2 h_S_) main_v2 main_c
  let main_v4 : FVec F S512x64x7 .f32 := Host.absf main_arg1
  let main_cst_0 : FVec F S_ .f32 := constant S_ .f32 0x7F800000#32
  let main_v5 : FVec F S512x64x7 .f32 := broadcastInDim S512x64x7 ![] bcast_S_S512x64x7 main_cst_0
  let main_v6 : IVec S512x64x7 1 := cmpf .olt main_v4 main_v5
  let main_c_1 : IVec S_ 1 := constantI S_ 1 1#1
  let main_v7 : IVec S_ 1 := (fun x v => Host.reduce IntOp.andi x v reducesTo_S512x64x7_S_d0_1_2 h_S_) main_v6 main_c_1
  let main_v8 : IVec S_ 1 := andi main_v3 main_v7
  let main_v9 : FVec F S2048x1024 .f32 := Host.absf main_arg4
  let main_cst_2 : FVec F S_ .f32 := constant S_ .f32 0x7F800000#32
  let main_v10 : FVec F S2048x1024 .f32 := broadcastInDim S2048x1024 ![] bcast_S_S2048x1024 main_cst_2
  let main_v11 : IVec S2048x1024 1 := cmpf .olt main_v9 main_v10
  let main_c_3 : IVec S_ 1 := constantI S_ 1 1#1
  let main_v12 : IVec S_ 1 := (fun x v => Host.reduce IntOp.andi x v reducesTo_S2048x1024_S_d0_1 h_S_) main_v11 main_c_3
  let main_v13 : IVec S_ 1 := andi main_v8 main_v12
  let main_v14 : FVec F S1024 .f32 := Host.absf main_arg5
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_arg6 main_arg7 main_v13 main_v16
-- ==== Kernel.lean ====
abbrev S512x64x2048 : Shape := ⟨3, ![512, 64, 2048]⟩
abbrev S512x64x7 : Shape := ⟨3, ![512, 64, 7]⟩
abbrev S512x64 : Shape := ⟨2, ![512, 64]⟩
abbrev S2048x1024 : Shape := ⟨2, ![2048, 1024]⟩
abbrev S1024 : Shape := ⟨1, ![1024]⟩
abbrev S32768x2048 : Shape := ⟨2, ![32768, 2048]⟩
abbrev S32768x1024 : Shape := ⟨2, ![32768, 1024]⟩
abbrev S256x2048 : Shape := ⟨2, ![256, 2048]⟩
abbrev S256x1024 : Shape := ⟨2, ![256, 1024]⟩
abbrev S1x1024 : Shape := ⟨2, ![1, 1024]⟩
abbrev S256 : Shape := ⟨1, ![256]⟩
abbrev S256x1 : Shape := ⟨2, ![256, 1]⟩
abbrev S512x64x1024 : Shape := ⟨3, ![512, 64, 1024]⟩
abbrev S_ : Shape := ⟨0, ![]⟩
abbrev S512x64x1 : Shape := ⟨3, ![512, 64, 1]⟩
abbrev S1 : Shape := ⟨1, ![1]⟩
abbrev S1x1x1 : Shape := ⟨3, ![1, 1, 1]⟩

abbrev nBuf : Space → Nat
  | .hbm => 67
  | .vmem => 8
  | .smem => 0
  | _ => 0

abbrev bufTy : (tb : Table) → Fin (tcTables nBuf tb) → BufTy
  | .hbm, ⟨0, _⟩ => ⟨S512x64x2048, .f32⟩
  | .hbm, ⟨1, _⟩ => ⟨S512x64x7, .f32⟩
  | .hbm, ⟨2, _⟩ => ⟨S512x64, .i32⟩
  | .hbm, ⟨3, _⟩ => ⟨S512x64, .i32⟩
  | .hbm, ⟨4, _⟩ => ⟨S2048x1024, .f32⟩
  | .hbm, ⟨5, _⟩ => ⟨S1024, .f32⟩
  | .hbm, ⟨6, _⟩ => ⟨S1024, .f32⟩
  | .hbm, ⟨7, _⟩ => ⟨S1024, .f32⟩
  | .hbm, ⟨8, _⟩ => ⟨S32768x2048, .f32⟩
  | .hbm, ⟨9, _⟩ => ⟨S2048x1024, .bf16⟩
  | .hbm, ⟨10, _⟩ => ⟨S32768x1024, .f32⟩
  | .hbm, ⟨11, _⟩ => ⟨S512x64x1024, .f32⟩
  | .hbm, ⟨12, _⟩ => ⟨S_, .i32⟩
  | .hbm, ⟨13, _⟩ => ⟨S512x64, .i32⟩
  | .hbm, ⟨14, _⟩ => ⟨S512x64, .i32⟩
  | .hbm, ⟨15, _⟩ => ⟨S512x64, .i32⟩
  | .hbm, ⟨16, _⟩ => ⟨S512x64, .i32⟩
  | .hbm, ⟨17, _⟩ => ⟨S512x64, .i32⟩
  | .hbm, ⟨18, _⟩ => ⟨S512x64x1, .i32⟩
  | .hbm, ⟨19, _⟩ => ⟨S_, .i32⟩
  | .hbm, ⟨20, _⟩ => ⟨S512x64x1, .i32⟩
  | .hbm, ⟨21, _⟩ => ⟨S512x64x1, .i1⟩
  | .hbm, ⟨22, _⟩ => ⟨S_, .i32⟩
  | .hbm, ⟨23, _⟩ => ⟨S512x64x1, .i32⟩
  | .hbm, ⟨24, _⟩ => ⟨S512x64x1, .i32⟩
  | .hbm, ⟨25, _⟩ => ⟨S512x64x1, .i32⟩
  | .hbm, ⟨26, _⟩ => ⟨S1, .i32⟩
  | .hbm, ⟨27, _⟩ => ⟨S_, .i32⟩
  | .hbm, ⟨28, _⟩ => ⟨S512x64x1, .i32⟩
  | .hbm, ⟨29, _⟩ => ⟨S512x64x1, .i1⟩
  | .hbm, ⟨30, _⟩ => ⟨S1x1x1, .i32⟩
  | .hbm, ⟨31, _⟩ => ⟨S512x64x1, .i32⟩
  | .hbm, ⟨32, _⟩ => ⟨S512x64x1, .i1⟩
  | .hbm, ⟨33, _⟩ => ⟨S512x64x1, .i1⟩
  | .hbm, ⟨34, _⟩ => ⟨S_, .i1⟩
  | .hbm, ⟨35, _⟩ => ⟨S512x64, .i1⟩
  | .hbm, ⟨36, _⟩ => ⟨S512x64x1024, .f32⟩
  | .hbm, ⟨37, _⟩ => ⟨S512x64x1024, .i1⟩
  | .hbm, ⟨38, _⟩ => ⟨S_, .f32⟩
  | .hbm, ⟨39, _⟩ => ⟨S512x64x1024, .f32⟩
  | .hbm, ⟨40, _⟩ => ⟨S512x64x1024, .f32⟩
  | .hbm, ⟨41, _⟩ => ⟨S_, .i32⟩
  | .hbm, ⟨42, _⟩ => ⟨S512x64, .i32⟩
  | .hbm, ⟨43, _⟩ => ⟨S512x64, .i1⟩
  | .hbm, ⟨44, _⟩ => ⟨S_, .i32⟩
  | .hbm, ⟨45, _⟩ => ⟨S512x64, .i32⟩
  | .hbm, ⟨46, _⟩ => ⟨S512x64, .i32⟩
  | .hbm, ⟨47, _⟩ => ⟨S512x64, .i32⟩
  | .hbm, ⟨48, _⟩ => ⟨S512x64x1, .i32⟩
  | .hbm, ⟨49, _⟩ => ⟨S1, .i32⟩
  | .hbm, ⟨50, _⟩ => ⟨S_, .i32⟩
  | .hbm, ⟨51, _⟩ => ⟨S512x64x1, .i32⟩
  | .hbm, ⟨52, _⟩ => ⟨S512x64x1, .i1⟩
  | .hbm, ⟨53, _⟩ => ⟨S1x1x1, .i32⟩
  | .hbm, ⟨54, _⟩ => ⟨S512x64x1, .i32⟩
  | .hbm, ⟨55, _⟩ => ⟨S512x64x1, .i1⟩
  | .hbm, ⟨56, _⟩ => ⟨S512x64x1, .i1⟩
  | .hbm, ⟨57, _⟩ => ⟨S_, .i1⟩
  | .hbm, ⟨58, _⟩ => ⟨S512x64, .i1⟩
  | .hbm, ⟨59, _⟩ => ⟨S512x64, .i32⟩
  | .hbm, ⟨60, _⟩ => ⟨S_, .i32⟩
  | .hbm, ⟨61, _⟩ => ⟨S512x64, .i32⟩
  | .hbm, ⟨62, _⟩ => ⟨S512x64, .i32⟩
  | .hbm, ⟨63, _⟩ => ⟨S512x64, .f32⟩
  | .hbm, ⟨64, _⟩ => ⟨S512x64x1, .f32⟩
  | .hbm, ⟨65, _⟩ => ⟨S512x64x1024, .f32⟩
  | .hbm, ⟨66, _⟩ => ⟨S512x64x1024, .f32⟩
  | .local _ .vmem, ⟨0, _⟩ => ⟨S256x2048, .f32⟩
  | .local _ .vmem, ⟨1, _⟩ => ⟨S256x2048, .f32⟩
  | .local _ .vmem, ⟨2, _⟩ => ⟨S2048x1024, .bf16⟩
  | .local _ .vmem, ⟨3, _⟩ => ⟨S1024, .f32⟩
  | .local _ .vmem, ⟨4, _⟩ => ⟨S1024, .f32⟩
  | .local _ .vmem, ⟨5, _⟩ => ⟨S1024, .f32⟩
  | .local _ .vmem, ⟨6, _⟩ => ⟨S256x1024, .f32⟩
  | .local _ .vmem, ⟨7, _⟩ => ⟨S256x1024, .f32⟩
  | _, _ => ⟨S512x64x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_call0_v0 : Ref sig .tc := ⟨.hbm, 15, rfl⟩
abbrev main_call0_v1_0 : Ref sig .tc := ⟨.hbm, 16, rfl⟩
abbrev main_v6 : Ref sig .tc := ⟨.hbm, 17, rfl⟩
abbrev main_v7 : Ref sig .tc := ⟨.hbm, 18, rfl⟩
abbrev main_call1_c : Ref sig .tc := ⟨.hbm, 19, rfl⟩
abbrev main_call1_v0 : Ref sig .tc := ⟨.hbm, 20, rfl⟩
abbrev main_call1_v1 : Ref sig .tc := ⟨.hbm, 21, rfl⟩
abbrev main_call1_c_0 : Ref sig .tc := ⟨.hbm, 22, rfl⟩
abbrev main_call1_v2 : Ref sig .tc := ⟨.hbm, 23, rfl⟩
abbrev main_call1_v3 : Ref sig .tc := ⟨.hbm, 24, rfl⟩
abbrev main_call1_v4 : Ref sig .tc := ⟨.hbm, 25, rfl⟩
abbrev main_call1_c_1 : Ref sig .tc := ⟨.hbm, 26, rfl⟩
abbrev main_call1_c_2 : Ref sig .tc := ⟨.hbm, 27, rfl⟩
abbrev main_call1_v5 : Ref sig .tc := ⟨.hbm, 28, rfl⟩
abbrev main_call1_v6 : Ref sig .tc := ⟨.hbm, 29, rfl⟩
abbrev main_call1_v7 : Ref sig .tc := ⟨.hbm, 30, rfl⟩
abbrev main_call1_v8 : Ref sig .tc := ⟨.hbm, 31, rfl⟩
abbrev main_call1_v9 : Ref sig .tc := ⟨.hbm, 32, rfl⟩
abbrev main_call1_v10 : Ref sig .tc := ⟨.hbm, 33, rfl⟩
abbrev main_call1_c_3 : Ref sig .tc := ⟨.hbm, 34, rfl⟩
abbrev main_call1_v11 : Ref sig .tc := ⟨.hbm, 35, rfl⟩
abbrev main_call1_v12 : Ref sig .tc := ⟨.hbm, 36, rfl⟩
abbrev main_call1_v13 : Ref sig .tc := ⟨.hbm, 37, rfl⟩
abbrev main_call1_cst : Ref sig .tc := ⟨.hbm, 38, rfl⟩
abbrev main_call1_v14 : Ref sig .tc := ⟨.hbm, 39, rfl⟩
abbrev main_v8 : Ref sig .tc := ⟨.hbm, 40, rfl⟩
abbrev main_call2_c : Ref sig .tc := ⟨.hbm, 41, rfl⟩
abbrev main_call2_v0 : Ref sig .tc := ⟨.hbm, 42, rfl⟩
abbrev main_call2_v1 : Ref sig .tc := ⟨.hbm, 43, rfl⟩
abbrev main_call2_c_0 : Ref sig .tc := ⟨.hbm, 44, rfl⟩
abbrev main_call2_v2 : Ref sig .tc := ⟨.hbm, 45, rfl⟩
abbrev main_call2_v3 : Ref sig .tc := ⟨.hbm, 46, rfl⟩
abbrev main_call2_v4 : Ref sig .tc := ⟨.hbm, 47, rfl⟩
abbrev main_call2_v5 : Ref sig .tc := ⟨.hbm, 48, rfl⟩
abbrev main_call2_c_1 : Ref sig .tc := ⟨.hbm, 49, rfl⟩
abbrev main_call2_c_2 : Ref sig .tc := ⟨.hbm, 50, rfl⟩
abbrev main_call2_v6 : Ref sig .tc := ⟨.hbm, 51, rfl⟩
abbrev main_call2_v7 : Ref sig .tc := ⟨.hbm, 52, rfl⟩
abbrev main_call2_v8 : Ref sig .tc := ⟨.hbm, 53, rfl⟩
abbrev main_call2_v9 : Ref sig .tc := ⟨.hbm, 54, rfl⟩
abbrev main_call2_v10 : Ref sig .tc := ⟨.hbm, 55, rfl⟩
abbrev main_call2_v11 : Ref sig .tc := ⟨.hbm, 56, rfl⟩
abbrev main_call2_c_3 : Ref sig .tc := ⟨.hbm, 57, rfl⟩
abbrev main_call2_v12 : Ref sig .tc := ⟨.hbm, 58, rfl⟩
abbrev main_call2_v13 : Ref sig .tc := ⟨.hbm, 59, rfl⟩
abbrev main_call2_c_4 : Ref sig .tc := ⟨.hbm, 60, rfl⟩
abbrev main_call2_v14 : Ref sig .tc := ⟨.hbm, 61, rfl⟩
abbrev main_v9 : Ref sig .tc := ⟨.hbm, 62, rfl⟩
abbrev main_v10 : Ref sig .tc := ⟨.hbm, 63, rfl⟩
abbrev main_v11 : Ref sig .tc := ⟨.hbm, 64, rfl⟩
abbrev main_v12 : Ref sig .tc := ⟨.hbm, 65, rfl⟩
abbrev main_v13 : Ref sig .tc := ⟨.hbm, 66, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S512x64x2048_S32768x2048 : S512x64x2048.ShapeCasts S32768x2048
  bitsLt_bf16_f32 : FTy.bits .bf16 < FTy.bits .f32
  inb_S256x2048_S256x2048_0_0 : ∀ a, (![0, 0] : Fin 2 → Nat) a + S256x2048.size a ≤ S256x2048.size a
  h_S256x2048 : 0 < S256x2048.numel
  shapeCasts_S256x2048_S256x2048 : S256x2048.ShapeCasts S256x2048
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  inb_S1024_S1024_0 : ∀ a, (![0] : Fin 1 → Nat) a + S1024.size a ≤ S1024.size a
  h_S1024 : 0 < S1024.numel
  shapeCasts_S1024_S1x1024 : S1024.ShapeCasts S1x1024
  broadcasts_S1x1024_S256x1024 : S1x1024.Broadcasts S256x1024
  reduces_S256x1024_S256 : S256x1024.Reduces [1] S256
  shapeCasts_S256_S256x1 : S256.ShapeCasts S256x1
  broadcasts_S256x1_S256x1024 : S256x1.Broadcasts S256x1024
  inb_S256x1024_S256x1024_0_0 : ∀ a, (![0, 0] : Fin 2 → Nat) a + S256x1024.size a ≤ S256x1024.size a
  h_S256x1024 : 0 < S256x1024.numel
  shapeCasts_S32768x1024_S512x64x1024 : S32768x1024.ShapeCasts S512x64x1024
  bcast_S_S512x64 : S_.BroadcastsInDim S512x64 (![] : Fin 0 → Fin S512x64.rank)
  bcast_S512x64_S512x64x1_0_1 : S512x64.BroadcastsInDim S512x64x1 (![0, 1] : Fin 2 → Fin S512x64x1.rank)
  bcast_S_S512x64x1 : S_.BroadcastsInDim S512x64x1 (![] : Fin 0 → Fin S512x64x1.rank)
  bcast_S1_S1x1x1_2 : S1.BroadcastsInDim S1x1x1 (![2] : Fin 1 → Fin S1x1x1.rank)
  bcast_S1x1x1_S512x64x1_0_1_2 : S1x1x1.BroadcastsInDim S512x64x1 (![0, 1, 2] : Fin 3 → Fin S512x64x1.rank)
  reducesTo_S512x64x1_S512x64_d2 : S512x64x1.ReducesTo [2] S512x64
  h_S_ : 0 < S_.numel
  bcast_S512x64_S512x64x1024_0_1 : S512x64.BroadcastsInDim S512x64x1024 (![0, 1] : Fin 2 → Fin S512x64x1024.rank)
  bcast_S_S512x64x1024 : S_.BroadcastsInDim S512x64x1024 (![] : Fin 0 → Fin S512x64x1024.rank)
  shapeCasts_S512x64_S512x64x1 : S512x64.ShapeCasts S512x64x1
  bcast_S512x64x1_S512x64x1024_0_1_2 : S512x64x1.BroadcastsInDim S512x64x1024 (![0, 1, 2] : Fin 3 → Fin S512x64x1024.rank)
  dot_S256x2048_S2048x1024_S256x1024_1_0_0_1_n_n_wf : DotDims.WF S256x2048 S2048x1024 S256x1024 [1] [0] [0] [1] [] []
  gather_S512x64x1024_S512x64x1_S512x64x1024_2_1_0_0_1_2_111024_wf : GatherDims.WF S512x64x1024 S512x64x1 S512x64x1024 [2] [1] [0] [1] [0] 2 ![1, 1, 1024]
  gather_S512x64_S512x64x1_S512x64_n_1_0_0_1_2_11_wf : GatherDims.WF S512x64 S512x64x1 S512x64 [] [1] [0] [1] [0] 2 ![1, 1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x2048.size a ≤ S32768x2048.size a
  hwx0_0 : ∀ i : grid0.Coords, EltTy.bits .f32 = 32 ∨ (Rect.block (s := S32768x2048) S256x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2048x1024.size a ≤ S2048x1024.size a
  hwx0_1 : ∀ i : grid0.Coords, EltTy.bits .bf16 = 32 ∨ (Rect.block (s := S2048x1024) S2048x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024.size a ≤ S1024.size a
  hwx0_2 : ∀ i : grid0.Coords, EltTy.bits .f32 = 32 ∨ (Rect.block (s := S1024) S1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024.size a ≤ S1024.size a
  hwx0_3 : ∀ i : grid0.Coords, EltTy.bits .f32 = 32 ∨ (Rect.block (s := S1024) S1024.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024.size a ≤ S1024.size a
  hwx0_4 : ∀ i : grid0.Coords, EltTy.bits .f32 = 32 ∨ (Rect.block (s := S1024) S1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S256x1024.size a ≤ S32768x1024.size a
  hwx0_5 : ∀ i : grid0.Coords, EltTy.bits .f32 = 32 ∨ (Rect.block (s := S32768x1024) S256x1024.size (cc0_transform_5 i) (hinb0_5 i)).WholeWords (EltTy.packing .f32)

variable [Facts₀]

def dot_S256x2048_S2048x1024_S256x1024_1_0_0_1_n_n : DotDims S256x2048 S2048x1024 S256x1024 where
  lhsContracting := [1]
  rhsContracting := [0]
  lhsNonContracting := [0]
  rhsNonContracting := [1]
  lhsBatch := []
  rhsBatch := []
  wf := dot_S256x2048_S2048x1024_S256x1024_1_0_0_1_n_n_wf
def comparator_i32_i32_d1 : BitVec 32 × BitVec 32 → BitVec 32 × BitVec 32 → BitVec 1 :=
  fun l r =>
    let v2 := IntOp.cmpi .slt l.1 r.1
    v2
def gather_S512x64x1024_S512x64x1_S512x64x1024_2_1_0_0_1_2_111024 : GatherDims S512x64x1024 S512x64x1 S512x64x1024 where
  offsetDims := [2]
  collapsedSliceDims := [1]
  operandBatchingDims := [0]
  startIndicesBatchingDims := [0]
  startIndexMap := [1]
  indexVectorDim := 2
  sliceSizes := ![1, 1, 1024]
  wf := gather_S512x64x1024_S512x64x1_S512x64x1024_2_1_0_0_1_2_111024_wf
def gather_S512x64_S512x64x1_S512x64_n_1_0_0_1_2_11 : GatherDims S512x64 S512x64x1 S512x64 where
  offsetDims := []
  collapsedSliceDims := [1]
  operandBatchingDims := [0]
  startIndicesBatchingDims := [0]
  startIndexMap := [1]
  indexVectorDim := 2
  sliceSizes := ![1, 1]
  wf := gather_S512x64_S512x64x1_S512x64_n_1_0_0_1_2_11_wf

abbrev win0_0 : Pipeline.Window sig grid0 :=
  Pipeline.Window.ofSpec (Memref.whole main_v0) S256x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S2048x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg5) S1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg6) S1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg7) S1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S256x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S512x64x2048 : Shape := ⟨3, ![512, 64, 2048]⟩
abbrev S512x64x7 : Shape := ⟨3, ![512, 64, 7]⟩
abbrev S512x64 : Shape := ⟨2, ![512, 64]⟩
abbrev S2048x1024 : Shape := ⟨2, ![2048, 1024]⟩
abbrev S1024 : Shape := ⟨1, ![1024]⟩
abbrev S512x64x1024 : Shape := ⟨3, ![512, 64, 1024]⟩
abbrev S1x1x1024 : Shape := ⟨3, ![1, 1, 1024]⟩
abbrev S_ : Shape := ⟨0, ![]⟩
abbrev S512x64x1 : Shape := ⟨3, ![512, 64, 1]⟩
abbrev S1 : Shape := ⟨1, ![1]⟩
abbrev S1x1x1 : Shape := ⟨3, ![1, 1, 1]⟩

abbrev nBuf : Space → Nat
  | .hbm => 99
  | .vmem => 0
  | .smem => 0
  | _ => 0

abbrev bufTy : (tb : Table) → Fin (tcTables nBuf tb) → BufTy
  | .hbm, ⟨0, _⟩ => ⟨S512x64x2048, .f32⟩
  | .hbm, ⟨1, _⟩ => ⟨S512x64x7, .f32⟩
  | .hbm, ⟨2, _⟩ => ⟨S512x64, .i32⟩
  | .hbm, ⟨3, _⟩ => ⟨S512x64, .i32⟩
  | .hbm, ⟨4, _⟩ => ⟨S2048x1024, .f32⟩
  | .hbm, ⟨5, _⟩ => ⟨S1024, .f32⟩
  | .hbm, ⟨6, _⟩ => ⟨S1024, .f32⟩
  | .hbm, ⟨7, _⟩ => ⟨S1024, .f32⟩
  | .hbm, ⟨8, _⟩ => ⟨S512x64x1024, .f32⟩
  | .hbm, ⟨9, _⟩ => ⟨S1x1x1024, .f32⟩
  | .hbm, ⟨10, _⟩ => ⟨S512x64x1024, .f32⟩
  | .hbm, ⟨11, _⟩ => ⟨S512x64x1024, .f32⟩
  | .hbm, ⟨12, _⟩ => ⟨S_, .f32⟩
  | .hbm, ⟨13, _⟩ => ⟨S512x64x1024, .f32⟩
  | .hbm, ⟨14, _⟩ => ⟨S512x64x1024, .f32⟩
  | .hbm, ⟨15, _⟩ => ⟨S_, .f32⟩
  | .hbm, ⟨16, _⟩ => ⟨S512x64, .f32⟩
  | .hbm, ⟨17, _⟩ => ⟨S512x64x1, .f32⟩
  | .hbm, ⟨18, _⟩ => ⟨S_, .f32⟩
  | .hbm, ⟨19, _⟩ => ⟨S512x64x1, .f32⟩
  | .hbm, ⟨20, _⟩ => ⟨S512x64x1, .f32⟩
  | .hbm, ⟨21, _⟩ => ⟨S512x64x1024, .f32⟩
  | .hbm, ⟨22, _⟩ => ⟨S512x64x1024, .f32⟩
  | .hbm, ⟨23, _⟩ => ⟨S512x64x1024, .f32⟩
  | .hbm, ⟨24, _⟩ => ⟨S_, .f32⟩
  | .hbm, ⟨25, _⟩ => ⟨S512x64, .f32⟩
  | .hbm, ⟨26, _⟩ => ⟨S512x64x1, .f32⟩
  | .hbm, ⟨27, _⟩ => ⟨S_, .f32⟩
  | .hbm, ⟨28, _⟩ => ⟨S512x64x1, .f32⟩
  | .hbm, ⟨29, _⟩ => ⟨S512x64x1, .f32⟩
  | .hbm, ⟨30, _⟩ => ⟨S512x64x1024, .f32⟩
  | .hbm, ⟨31, _⟩ => ⟨S512x64x1024, .f32⟩
  | .hbm, ⟨32, _⟩ => ⟨S_, .f32⟩
  | .hbm, ⟨33, _⟩ => ⟨S512x64x1, .f32⟩
  | .hbm, ⟨34, _⟩ => ⟨S512x64x1, .f32⟩
  | .hbm, ⟨35, _⟩ => ⟨S512x64x1, .f32⟩
  | .hbm, ⟨36, _⟩ => ⟨S512x64x1024, .f32⟩
  | .hbm, ⟨37, _⟩ => ⟨S512x64x1024, .f32⟩
  | .hbm, ⟨38, _⟩ => ⟨S1x1x1024, .f32⟩
  | .hbm, ⟨39, _⟩ => ⟨S512x64x1024, .f32⟩
  | .hbm, ⟨40, _⟩ => ⟨S512x64x1024, .f32⟩
  | .hbm, ⟨41, _⟩ => ⟨S1x1x1024, .f32⟩
  | .hbm, ⟨42, _⟩ => ⟨S512x64x1024, .f32⟩
  | .hbm, ⟨43, _⟩ => ⟨S512x64x1024, .f32⟩
  | .hbm, ⟨44, _⟩ => ⟨S_, .i32⟩
  | .hbm, ⟨45, _⟩ => ⟨S512x64, .i32⟩
  | .hbm, ⟨46, _⟩ => ⟨S512x64, .i32⟩
  | .hbm, ⟨47, _⟩ => ⟨S512x64, .i32⟩
  | .hbm, ⟨48, _⟩ => ⟨S512x64, .i32⟩
  | .hbm, ⟨49, _⟩ => ⟨S512x64, .i32⟩
  | .hbm, ⟨50, _⟩ => ⟨S512x64x1, .i32⟩
  | .hbm, ⟨51, _⟩ => ⟨S_, .i32⟩
  | .hbm, ⟨52, _⟩ => ⟨S512x64x1, .i32⟩
  | .hbm, ⟨53, _⟩ => ⟨S512x64x1, .i1⟩
  | .hbm, ⟨54, _⟩ => ⟨S_, .i32⟩
  | .hbm, ⟨55, _⟩ => ⟨S512x64x1, .i32⟩
  | .hbm, ⟨56, _⟩ => ⟨S512x64x1, .i32⟩
  | .hbm, ⟨57, _⟩ => ⟨S512x64x1, .i32⟩
  | .hbm, ⟨58, _⟩ => ⟨S1, .i32⟩
  | .hbm, ⟨59, _⟩ => ⟨S_, .i32⟩
  | .hbm, ⟨60, _⟩ => ⟨S512x64x1, .i32⟩
  | .hbm, ⟨61, _⟩ => ⟨S512x64x1, .i1⟩
  | .hbm, ⟨62, _⟩ => ⟨S1x1x1, .i32⟩
  | .hbm, ⟨63, _⟩ => ⟨S512x64x1, .i32⟩
  | .hbm, ⟨64, _⟩ => ⟨S512x64x1, .i1⟩
  | .hbm, ⟨65, _⟩ => ⟨S512x64x1, .i1⟩
  | .hbm, ⟨66, _⟩ => ⟨S_, .i1⟩
  | .hbm, ⟨67, _⟩ => ⟨S512x64, .i1⟩
  | .hbm, ⟨68, _⟩ => ⟨S512x64x1024, .f32⟩
  | .hbm, ⟨69, _⟩ => ⟨S512x64x1024, .i1⟩
  | .hbm, ⟨70, _⟩ => ⟨S_, .f32⟩
  | .hbm, ⟨71, _⟩ => ⟨S512x64x1024, .f32⟩
  | .hbm, ⟨72, _⟩ => ⟨S512x64x1024, .f32⟩
  | .hbm, ⟨73, _⟩ => ⟨S_, .i32⟩
  | .hbm, ⟨74, _⟩ => ⟨S512x64, .i32⟩
  | .hbm, ⟨75, _⟩ => ⟨S512x64, .i1⟩
  | .hbm, ⟨76, _⟩ => ⟨S_, .i32⟩
  | .hbm, ⟨77, _⟩ => ⟨S512x64, .i32⟩
  | .hbm, ⟨78, _⟩ => ⟨S512x64, .i32⟩
  | .hbm, ⟨79, _⟩ => ⟨S512x64, .i32⟩
  | .hbm, ⟨80, _⟩ => ⟨S512x64x1, .i32⟩
  | .hbm, ⟨81, _⟩ => ⟨S1, .i32⟩
  | .hbm, ⟨82, _⟩ => ⟨S_, .i32⟩
  | .hbm, ⟨83, _⟩ => ⟨S512x64x1, .i32⟩
  | .hbm, ⟨84, _⟩ => ⟨S512x64x1, .i1⟩
  | .hbm, ⟨85, _⟩ => ⟨S1x1x1, .i32⟩
  | .hbm, ⟨86, _⟩ => ⟨S512x64x1, .i32⟩
  | .hbm, ⟨87, _⟩ => ⟨S512x64x1, .i1⟩
  | .hbm, ⟨88, _⟩ => ⟨S512x64x1, .i1⟩
  | .hbm, ⟨89, _⟩ => ⟨S_, .i1⟩
  | .hbm, ⟨90, _⟩ => ⟨S512x64, .i1⟩
  | .hbm, ⟨91, _⟩ => ⟨S512x64, .i32⟩
  | .hbm, ⟨92, _⟩ => ⟨S_, .i32⟩
  | .hbm, ⟨93, _⟩ => ⟨S512x64, .i32⟩
  | .hbm, ⟨94, _⟩ => ⟨S512x64, .i32⟩
  | .hbm, ⟨95, _⟩ => ⟨S512x64, .f32⟩
  | .hbm, ⟨96, _⟩ => ⟨S512x64x1, .f32⟩
  | .hbm, ⟨97, _⟩ => ⟨S512x64x1024, .f32⟩
  | .hbm, ⟨98, _⟩ => ⟨S512x64x1024, .f32⟩
  | _, _ => ⟨S512x64x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_call0_cst : Ref sig .tc := ⟨.hbm, 12, rfl⟩
abbrev main_call0_v0 : Ref sig .tc := ⟨.hbm, 13, rfl⟩
abbrev main_v4 : Ref sig .tc := ⟨.hbm, 14, rfl⟩
abbrev main_cst : Ref sig .tc := ⟨.hbm, 15, rfl⟩
abbrev main_v5 : Ref sig .tc := ⟨.hbm, 16, rfl⟩
abbrev main_v6 : Ref sig .tc := ⟨.hbm, 17, rfl⟩
abbrev main_cst_0 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst_1 : Ref sig .tc := ⟨.hbm, 24, rfl⟩
abbrev main_v12 : Ref sig .tc := ⟨.hbm, 25, rfl⟩
abbrev main_v13 : Ref sig .tc := ⟨.hbm, 26, rfl⟩
abbrev main_cst_2 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_cst_3 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_c : Ref sig .tc := ⟨.hbm, 44, rfl⟩
abbrev main_v29 : Ref sig .tc := ⟨.hbm, 45, rfl⟩
abbrev main_v30 : Ref sig .tc := ⟨.hbm, 46, rfl⟩
abbrev main_call1_v0 : Ref sig .tc := ⟨.hbm, 47, rfl⟩
abbrev main_call1_v1_0 : Ref sig .tc := ⟨.hbm, 48, rfl⟩
abbrev main_v31 : Ref sig .tc := ⟨.hbm, 49, rfl⟩
abbrev main_v32 : Ref sig .tc := ⟨.hbm, 50, rfl⟩
abbrev main_call2_c : Ref sig .tc := ⟨.hbm, 51, rfl⟩
abbrev main_call2_v0 : Ref sig .tc := ⟨.hbm, 52, rfl⟩
abbrev main_call2_v1 : Ref sig .tc := ⟨.hbm, 53, rfl⟩
abbrev main_call2_c_0 : Ref sig .tc := ⟨.hbm, 54, rfl⟩
abbrev main_call2_v2 : Ref sig .tc := ⟨.hbm, 55, rfl⟩
abbrev main_call2_v3 : Ref sig .tc := ⟨.hbm, 56, rfl⟩
abbrev main_call2_v4 : Ref sig .tc := ⟨.hbm, 57, rfl⟩
abbrev main_call2_c_1 : Ref sig .tc := ⟨.hbm, 58, rfl⟩
abbrev main_call2_c_2 : Ref sig .tc := ⟨.hbm, 59, rfl⟩
abbrev main_call2_v5 : Ref sig .tc := ⟨.hbm, 60, rfl⟩
abbrev main_call2_v6 : Ref sig .tc := ⟨.hbm, 61, rfl⟩
abbrev main_call2_v7 : Ref sig .tc := ⟨.hbm, 62, rfl⟩
abbrev main_call2_v8 : Ref sig .tc := ⟨.hbm, 63, rfl⟩
abbrev main_call2_v9 : Ref sig .tc := ⟨.hbm, 64, rfl⟩
abbrev main_call2_v10 : Ref sig .tc := ⟨.hbm, 65, rfl⟩
abbrev main_call2_c_3 : Ref sig .tc := ⟨.hbm, 66, rfl⟩
abbrev main_call2_v11 : Ref sig .tc := ⟨.hbm, 67, rfl⟩
abbrev main_call2_v12 : Ref sig .tc := ⟨.hbm, 68, rfl⟩
abbrev main_call2_v13 : Ref sig .tc := ⟨.hbm, 69, rfl⟩
abbrev main_call2_cst : Ref sig .tc := ⟨.hbm, 70, rfl⟩
abbrev main_call2_v14 : Ref sig .tc := ⟨.hbm, 71, rfl⟩
abbrev main_v33 : Ref sig .tc := ⟨.hbm, 72, rfl⟩
abbrev main_call3_c : Ref sig .tc := ⟨.hbm, 73, rfl⟩
abbrev main_call3_v0 : Ref sig .tc := ⟨.hbm, 74, rfl⟩
abbrev main_call3_v1 : Ref sig .tc := ⟨.hbm, 75, rfl⟩
abbrev main_call3_c_0 : Ref sig .tc := ⟨.hbm, 76, rfl⟩
abbrev main_call3_v2 : Ref sig .tc := ⟨.hbm, 77, rfl⟩
abbrev main_call3_v3 : Ref sig .tc := ⟨.hbm, 78, rfl⟩
abbrev main_call3_v4 : Ref sig .tc := ⟨.hbm, 79, rfl⟩
abbrev main_call3_v5 : Ref sig .tc := ⟨.hbm, 80, rfl⟩
abbrev main_call3_c_1 : Ref sig .tc := ⟨.hbm, 81, rfl⟩
abbrev main_call3_c_2 : Ref sig .tc := ⟨.hbm, 82, rfl⟩
abbrev main_call3_v6 : Ref sig .tc := ⟨.hbm, 83, rfl⟩
abbrev main_call3_v7 : Ref sig .tc := ⟨.hbm, 84, rfl⟩
abbrev main_call3_v8 : Ref sig .tc := ⟨.hbm, 85, rfl⟩
abbrev main_call3_v9 : Ref sig .tc := ⟨.hbm, 86, rfl⟩
abbrev main_call3_v10 : Ref sig .tc := ⟨.hbm, 87, rfl⟩
abbrev main_call3_v11 : Ref sig .tc := ⟨.hbm, 88, rfl⟩
abbrev main_call3_c_3 : Ref sig .tc := ⟨.hbm, 89, rfl⟩
abbrev main_call3_v12 : Ref sig .tc := ⟨.hbm, 90, rfl⟩
abbrev main_call3_v13 : Ref sig .tc := ⟨.hbm, 91, rfl⟩
abbrev main_call3_c_4 : Ref sig .tc := ⟨.hbm, 92, rfl⟩
abbrev main_call3_v14 : Ref sig .tc := ⟨.hbm, 93, rfl⟩
abbrev main_v34 : Ref sig .tc := ⟨.hbm, 94, rfl⟩
abbrev main_v35 : Ref sig .tc := ⟨.hbm, 95, rfl⟩
abbrev main_v36 : Ref sig .tc := ⟨.hbm, 96, rfl⟩
abbrev main_v37 : Ref sig .tc := ⟨.hbm, 97, rfl⟩
abbrev main_v38 : Ref sig .tc := ⟨.hbm, 98, rfl⟩

abbrev nD : Nat := 1
abbrev τ : Topo := Topo.v7x

variable {F : FTy → Type} [FloatOps F]

class Facts₀ : Prop where
  bcast_S1024_S1x1x1024_2 : S1024.BroadcastsInDim S1x1x1024 (![2] : Fin 1 → Fin S1x1x1024.rank)
  bcast_S1x1x1024_S512x64x1024_0_1_2 : S1x1x1024.BroadcastsInDim S512x64x1024 (![0, 1, 2] : Fin 3 → Fin S512x64x1024.rank)
  bcast_S_S512x64x1024 : S_.BroadcastsInDim S512x64x1024 (![] : Fin 0 → Fin S512x64x1024.rank)
  reducesTo_S512x64x1024_S512x64_d2 : S512x64x1024.ReducesTo [2] S512x64
  h_S_ : 0 < S_.numel
  bcast_S512x64_S512x64x1_0_1 : S512x64.BroadcastsInDim S512x64x1 (![0, 1] : Fin 2 → Fin S512x64x1.rank)
  bcast_S_S512x64x1 : S_.BroadcastsInDim S512x64x1 (![] : Fin 0 → Fin S512x64x1.rank)
  bcast_S512x64x1_S512x64x1024_0_1_2 : S512x64x1.BroadcastsInDim S512x64x1024 (![0, 1, 2] : Fin 3 → Fin S512x64x1024.rank)
  bcast_S_S512x64 : S_.BroadcastsInDim S512x64 (![] : Fin 0 → Fin S512x64.rank)
  bcast_S1_S1x1x1_2 : S1.BroadcastsInDim S1x1x1 (![2] : Fin 1 → Fin S1x1x1.rank)
  bcast_S1x1x1_S512x64x1_0_1_2 : S1x1x1.BroadcastsInDim S512x64x1 (![0, 1, 2] : Fin 3 → Fin S512x64x1.rank)
  reducesTo_S512x64x1_S512x64_d2 : S512x64x1.ReducesTo [2] S512x64
  bcast_S512x64_S512x64x1024_0_1 : S512x64.BroadcastsInDim S512x64x1024 (![0, 1] : Fin 2 → Fin S512x64x1024.rank)
  shapeCasts_S512x64_S512x64x1 : S512x64.ShapeCasts S512x64x1
  dot_S512x64x2048_S2048x1024_S512x64x1024_2_0_01_1_n_n_wf : DotDims.WF S512x64x2048 S2048x1024 S512x64x1024 [2] [0] [0, 1] [1] [] []
  gather_S512x64x1024_S512x64x1_S512x64x1024_2_1_0_0_1_2_111024_wf : GatherDims.WF S512x64x1024 S512x64x1 S512x64x1024 [2] [1] [0] [1] [0] 2 ![1, 1, 1024]
  gather_S512x64_S512x64x1_S512x64_n_1_0_0_1_2_11_wf : GatherDims.WF S512x64 S512x64x1 S512x64 [] [1] [0] [1] [0] 2 ![1, 1]

variable [Facts₀]

def dot_S512x64x2048_S2048x1024_S512x64x1024_2_0_01_1_n_n : DotDims S512x64x2048 S2048x1024 S512x64x1024 where
  lhsContracting := [2]
  rhsContracting := [0]
  lhsNonContracting := [0, 1]
  rhsNonContracting := [1]
  lhsBatch := []
  rhsBatch := []
  wf := dot_S512x64x2048_S2048x1024_S512x64x1024_2_0_01_1_n_n_wf
def comparator_i32_i32_d1 : BitVec 32 × BitVec 32 → BitVec 32 × BitVec 32 → BitVec 1 :=
  fun l r =>
    let v2 := IntOp.cmpi .slt l.1 r.1
    v2
def gather_S512x64x1024_S512x64x1_S512x64x1024_2_1_0_0_1_2_111024 : GatherDims S512x64x1024 S512x64x1 S512x64x1024 where
  offsetDims := [2]
  collapsedSliceDims := [1]
  operandBatchingDims := [0]
  startIndicesBatchingDims := [0]
  startIndexMap := [1]
  indexVectorDim := 2
  sliceSizes := ![1, 1, 1024]
  wf := gather_S512x64x1024_S512x64x1_S512x64x1024_2_1_0_0_1_2_111024_wf
def gather_S512x64_S512x64x1_S512x64_n_1_0_0_1_2_11 : GatherDims S512x64 S512x64x1 S512x64 where
  offsetDims := []
  collapsedSliceDims := [1]
  operandBatchingDims := [0]
  startIndicesBatchingDims := [0]
  startIndexMap := [1]
  indexVectorDim := 2
  sliceSizes := ![1, 1]
  wf := gather_S512x64_S512x64x1_S512x64_n_1_0_0_1_2_11_wf

class Facts : Prop extends Facts₀ where

variable [Facts]
-- ==== Proof.TailSpec.lean ====
import Idealize.ShloMosaic.PureOps
import Idealize.ShloMosaic.PureOps.Ideal

/-!
# The common tail of the two programs, written once

Both programs end in the same computation on a normalised activation `ln : f32[512,64,1024]`
and an integer mask `x2 : i32[512,64]`:

* `order = argsort (1 - x2)` along axis 1, stable: the positions of each row in the order that
  puts the rows' entries with the larger mask value first, ties in their original order;
* `packed = take_along_axis ln order[:, :, None]` along axis 1: row `(b, k)` of the result is row
  `(b, order b k)` of `ln`, a negative index first wrapped around by the axis length 64, and a
  row whose index is then still outside `[0, 63]` filled with the fill value instead;
* `m = take_along_axis x2 order` along axis 1, converted to a float;
* the result is `packed * m`, the mask broadcast along the last axis.

Everything that a program spells in its own vocabulary (the sort's comparator, the two gathers'
dimension numbers, and the proofs of the shape relations the operations take) is a field of
`Ingredients`; the function `tail` is generic in them and in the float values.
-/

noncomputable section

namespace Cert.Tail

open Idealize.ShloMosaic

/-- The rank-zero shape (a scalar). -/
local notation "𝕊₀" => (⟨0, ![]⟩ : Shape)
/-- One element, rank one. -/
local notation "𝕊₁" => (⟨1, ![1]⟩ : Shape)
/-- One element, rank three. -/
local notation "𝕊₁₁₁" => (⟨3, ![1, 1, 1]⟩ : Shape)
/-- The mask's shape: batch × positions. -/
local notation "𝔹" => (⟨2, ![512, 64]⟩ : Shape)
/-- The index tensor's shape: batch × positions × one index component. -/
local notation "𝕀" => (⟨3, ![512, 64, 1]⟩ : Shape)
/-- The activation's shape: batch × positions × features. -/
local notation "𝕋" => (⟨3, ![512, 64, 1024]⟩ : Shape)

/-- What each program spells in its own vocabulary: the comparator of the sort, the dimension
    numbers of the two gathers, and the shape relations the tail's operations cite. -/
structure Ingredients where
  /-- The sort's comparator on (key, position) pairs. -/
  cmp : BitVec 32 × BitVec 32 → BitVec 32 × BitVec 32 → BitVec 1
  /-- The gather of whole feature rows of the activation along the position axis. -/
  gatherRows : GatherDims 𝕋 𝕀 𝕋
  /-- The gather of single mask entries along the position axis. -/
  gatherMask : GatherDims 𝔹 𝕀 𝔹
  bcast_S_B : (𝕊₀).BroadcastsInDim 𝔹 (![] : Fin 0 → Fin (𝔹).rank)
  bcast_B_I : (𝔹).BroadcastsInDim 𝕀 (![0, 1] : Fin 2 → Fin (𝕀).rank)
  bcast_S_I : (𝕊₀).BroadcastsInDim 𝕀 (![] : Fin 0 → Fin (𝕀).rank)
  bcast_S1_S111 : (𝕊₁).BroadcastsInDim 𝕊₁₁₁ (![2] : Fin 1 → Fin (𝕊₁₁₁).rank)
  bcast_S111_I : (𝕊₁₁₁).BroadcastsInDim 𝕀 (![0, 1, 2] : Fin 3 → Fin (𝕀).rank)
  reducesTo_I_B : (𝕀).ReducesTo [2] 𝔹
  h_S : 0 < (𝕊₀).numel
  bcast_B_T : (𝔹).BroadcastsInDim 𝕋 (![0, 1] : Fin 2 → Fin (𝕋).rank)
  bcast_S_T : (𝕊₀).BroadcastsInDim 𝕋 (![] : Fin 0 → Fin (𝕋).rank)
  shapeCasts_B_I : (𝔹).ShapeCasts 𝕀
  bcast_I_T : (𝕀).BroadcastsInDim 𝕋 (![0, 1, 2] : Fin 3 → Fin (𝕋).rank)

variable {F : FTy → Type} [FloatOps F]

/-- `argsort (1 - x2)` along the position axis, stable: the second component of the sort of the
    pairs (key `1 - x2`, position) by the comparator. -/
def order (I : Ingredients) (x2 : IVec 𝔹 32) : IVec 𝔹 32 :=
  (Host.sort2 𝔹 1 I.cmp
    (subi (broadcastInDim 𝔹 ![] I.bcast_S_B (constantI 𝕊₀ 32 1#32)) x2)
    (iotaInDim 𝔹 32 1)).2

/-- The order with a trailing index axis of length one: `order[:, :, None]`. -/
def orderCol (I : Ingredients) (x2 : IVec 𝔹 32) : IVec 𝕀 32 :=
  broadcastInDim 𝕀 ![0, 1] I.bcast_B_I (order I x2)

/-- A negative index wrapped around by the axis length 64, on the index tensor. -/
def wrapCol (I : Ingredients) (j : IVec 𝕀 32) : IVec 𝕀 32 :=
  select (cmpi .slt j (broadcastInDim 𝕀 ![] I.bcast_S_I (constantI 𝕊₀ 32 0#32)))
    (addi j (broadcastInDim 𝕀 ![] I.bcast_S_I (constantI 𝕊₀ 32 64#32)))
    j

/-- The same wrap-around on the rank-two order itself. -/
def wrapFlat (I : Ingredients) (j : IVec 𝔹 32) : IVec 𝔹 32 :=
  select (cmpi .slt j (broadcastInDim 𝔹 ![] I.bcast_S_B (constantI 𝕊₀ 32 0#32)))
    (addi j (broadcastInDim 𝔹 ![] I.bcast_S_B (constantI 𝕊₀ 32 64#32)))
    j

/-- The bounds check of a gather: per (batch, position), whether every component of the index
    lies in `[0, 63]` — the conjunction over the index axis of `0 ≤ j` and `j ≤ 63`. -/
def inBounds (I : Ingredients) (j : IVec 𝕀 32) : IVec 𝔹 1 :=
  Host.reduce IntOp.andi
    (andi
      (cmpi .sge j (broadcastInDim 𝕀 ![] I.bcast_S_I (constantI 𝕊₀ 32 0#32)))
      (cmpi .sle j
        (broadcastInDim 𝕀 ![0, 1, 2] I.bcast_S111_I
          (broadcastInDim 𝕊₁₁₁ ![2] I.bcast_S1_S111 (constantI 𝕊₁ 32 63#32)))))
    (constantI 𝕊₀ 1 1#1) I.reducesTo_I_B I.h_S

/-- The indices the rows are taken at: the order, as a column, wrapped around. -/
def rowIdx (I : Ingredients) (x2 : IVec 𝔹 32) : IVec 𝕀 32 :=
  wrapCol I (orderCol I x2)

/-- `take_along_axis ln order[:, :, None]` along the position axis: the rows of `ln` in the
    order, a row whose index is out of bounds filled with the fill value `0x7FC00000`. -/
def takeRows (I : Ingredients) (ln : FVec F 𝕋 .f32) (x2 : IVec 𝔹 32) : FVec F 𝕋 .f32 :=
  select (broadcastInDim 𝕋 ![0, 1] I.bcast_B_T (inBounds I (rowIdx I x2)))
    (Host.gather I.gatherRows ln (rowIdx I x2))
    (broadcastInDim 𝕋 ![] I.bcast_S_T (constant (F := F) 𝕊₀ .f32 0x7FC00000#32))

/-- The indices the mask's entries are taken at: the order wrapped around, then reshaped to a
    column. -/
def maskIdx (I : Ingredients) (x2 : IVec 𝔹 32) : IVec 𝕀 32 :=
  fun i => shapeCast 𝕀 (wrapFlat I (order I x2)) I.shapeCasts_B_I i

/-- `take_along_axis x2 order` along the position axis: the mask's entries in the order, an
    entry whose index is out of bounds filled with the least 32-bit integer. -/
def takeMask (I : Ingredients) (x2 : IVec 𝔹 32) : IVec 𝔹 32 :=
  select (inBounds I (maskIdx I x2))
    (Host.gather I.gatherMask x2 (maskIdx I x2))
    (broadcastInDim 𝔹 ![] I.bcast_S_B (constantI 𝕊₀ 32 2147483648#32))

/-- The reordered mask as a float, broadcast along the feature axis. -/
def maskT (I : Ingredients) (x2 : IVec 𝔹 32) : FVec F 𝕋 .f32 :=
  broadcastInDim 𝕋 ![0, 1, 2] I.bcast_I_T
    (broadcastInDim 𝕀 ![0, 1] I.bcast_B_I (sitofp (F := F) .f32 (takeMask I x2)))

/-- The tail: the rows of `ln` reordered by the stable argsort of `1 - x2`, times the mask
    reordered alike. -/
def tail (I : Ingredients) (ln : (⟨⟨3, ![512, 64, 1024]⟩, .f32⟩ : BufTy).Contents (Elt F))
    (x2 : (⟨⟨2, ![512, 64]⟩, .i32⟩ : BufTy).Contents (Elt F)) :
    (⟨⟨3, ![512, 64, 1024]⟩, .f32⟩ : BufTy).Contents (Elt F) :=
  mulf (takeRows I ln x2) (maskT I x2)

end Cert.Tail

end
-- ==== Proof.TailR.lean ====
import proofs.«175531_j57810259804256_1_alg».proof.Proof.RefRun
import proofs.«175531_j57810259804256_1_alg».proof.Proof.TailSpec

/-!
# The reference program's tail is the common tail

The reference's 91 operations are 36 that compute the normalised activation into `main_v28`,
followed by 55 that apply the computation `Cert.Tail.tail` to it and to the mask argument. The
fold of a concatenation is the fold of the second list from the fold of the first; the first 36
operations do not write the mask argument; and the fold of the last 55 over any valuation, read
at the result buffer, is `tail` at the reference's ingredients.
-/

noncomputable section

namespace Cert.ReferenceIdeal.TailR

open Cert.ReferenceIdeal Cert.ReferenceIdeal.Gen Idealize.ShloMosaic Idealize.ShloMosaic.TcCoe Idealize.SL.Sem
  Idealize.ShloMosaic.StableHlo
open Cert.Tail

variable {F : FTy → Type} [FloatOps F]

/-- The fold of a concatenation: the second list's fold from the first list's. -/
theorem after_append {τ : Topo} {sig : RefSig} {Val : EltTy → Type} (l₁ l₂ : List (HloOp τ sig Val))
    (V : Valuation τ sig Val) : after (l₁ ++ l₂) V = after l₂ (after l₁ V) := by
  induction l₁ generalizing V with
  | nil => rfl
  | cons op l ih => simp only [List.cons_append, after_cons, ih]

/-- A fold cut after its first `n` operations. -/
theorem after_take_drop {τ : Topo} {sig : RefSig} {Val : EltTy → Type} (n : Nat) (l : List (HloOp τ sig Val))
    (V : Valuation τ sig Val) : after l V = after (l.drop n) (after (l.take n) V) := by
  rw [← after_append, List.take_append_drop]

/-- The reference program's spelling of the tail's ingredients. -/
def IR : Ingredients where
  cmp := comparator_i32_i32_d1
  gatherRows := gather_S512x64x1024_S512x64x1_S512x64x1024_2_1_0_0_1_2_111024
  gatherMask := gather_S512x64_S512x64x1_S512x64_n_1_0_0_1_2_11
  bcast_S_B := Facts₀.bcast_S_S512x64
  bcast_B_I := Facts₀.bcast_S512x64_S512x64x1_0_1
  bcast_S_I := Facts₀.bcast_S_S512x64x1
  bcast_S1_S111 := Facts₀.bcast_S1_S1x1x1_2
  bcast_S111_I := Facts₀.bcast_S1x1x1_S512x64x1_0_1_2
  reducesTo_I_B := Facts₀.reducesTo_S512x64x1_S512x64_d2
  h_S := Facts₀.h_S_
  bcast_B_T := Facts₀.bcast_S512x64_S512x64x1024_0_1
  bcast_S_T := Facts₀.bcast_S_S512x64x1024
  shapeCasts_B_I := Facts₀.shapeCasts_S512x64_S512x64x1
  bcast_I_T := Facts₀.bcast_S512x64x1_S512x64x1024_0_1_2

/-- The first 36 operations leave the mask argument as it was. -/
theorem after_take_arg2 (V : Valuation τ sig (Elt F)) :
    after (ValueP.ops.take 36) V (Proc.devRef .tc main_arg2) = V (Proc.devRef .tc main_arg2) := by
  simp only [ValueP.ops, List.take_succ_cons, List.take_zero]
  after_results_simp

/-- The last 55 operations, folded over a valuation and read at the result buffer, are the common
    tail of the activation buffer and the mask argument. -/
theorem tail_drop (V1 : Valuation τ sig (Elt F)) :
    after (ValueP.ops.drop 36) V1 (Proc.devRef .tc main_v38)
      = tail IR (V1 (Proc.devRef .tc main_v28)) (V1 (Proc.devRef .tc main_arg2)) := by
  simp only [ValueP.ops, List.drop_succ_cons, List.drop_zero]
  after_results_simp
  simp only [cast_eq]
  rfl

/-- The reference's result buffer holds the common tail of what its first 36 operations leave in
    the activation buffer and of the mask argument. -/
theorem tail_reference (V : Valuation τ sig (Elt F)) :
    after ValueP.ops V (Proc.devRef .tc main_v38)
      = tail IR (after (ValueP.ops.take 36) V (Proc.devRef .tc main_v28)) (V (Proc.devRef .tc main_arg2)) := by
  rw [after_take_drop 36 ValueP.ops V, tail_drop, after_take_arg2]

end Cert.ReferenceIdeal.TailR

end
-- ==== Proof.RefLnRun.lean ====
import proofs.«175531_j57810259804256_1_alg».proof.Proof.RefRead
import proofs.«175531_j57810259804256_1_alg».proof.Proof.TailR

/-!
# The reference program's first 36 operations compute the normalised activation

The first 36 operations of the reference are the linear layer with its bias, the cut-off at
zero, the layer normalisation (mean, centred squares, variance, reciprocal square root) and the
scale and shift. Folded over any valuation and read at the activation buffer, they are the
stage `val_main_v28` of the operation-by-operation reading of the program, as a function of the
five arguments the stage depends on.
-/

noncomputable section

namespace Cert.ReferenceIdeal.LnRun

open Cert.ReferenceIdeal Cert.ReferenceIdeal.Gen Idealize.ShloMosaic Idealize.ShloMosaic.TcCoe Idealize.SL.Sem
  Idealize.ShloMosaic.StableHlo

variable {F : FTy → Type} [FloatOps F]

/-- The first 36 operations, folded over a valuation and read at the activation buffer, are the
    normalised activation of the input, the weight, the bias, the scale and the shift. -/
theorem ln_reference (V : Valuation τ sig (Elt F)) :
    StableHlo.after (ValueP.ops.take 36) V (Proc.devRef .tc main_v28)
      = ReadP.val_main_v28 (F := F) (V (Proc.devRef .tc main_arg0)) (V (Proc.devRef .tc main_arg4))
          (V (Proc.devRef .tc main_arg5)) (V (Proc.devRef .tc main_arg6)) (V (Proc.devRef .tc main_arg7)) := by
  simp only [ValueP.ops, List.take_succ_cons, List.take_zero]
  after_results_simp
  simp only [cast_eq]
  rfl

end Cert.ReferenceIdeal.LnRun

end
-- ==== Proof.TailK.lean ====
import proofs.«175531_j57810259804256_1_alg».proof.Proof.Gen.KernelIdeal.Frame
import proofs.«175531_j57810259804256_1_alg».proof.Proof.TailSpec
import Idealize.ShloMosaic.Lib.StableHlo.Run

/-!
# The kernel program's tail is the common tail

After the region, the kernel's program reshapes the region's output array `f32[32768,1024]` to
`f32[512,64,1024]` and applies, over 56 host operations, the computation `Cert.Tail.tail` to
it and to the mask argument. The fold of those operations over any valuation, read at the result
buffer, is `tail` at the kernel's ingredients.
-/

noncomputable section

namespace Cert.KernelIdeal.TailK

open Cert.KernelIdeal Cert.KernelIdeal.Gen Idealize.ShloMosaic Idealize.ShloMosaic.TcCoe Idealize.SL.Sem
  Idealize.ShloMosaic.StableHlo
open Cert.Tail

variable {F : FTy → Type} [FloatOps F]

/-- The kernel program's spelling of the tail's ingredients. -/
def IK : Ingredients where
  cmp := comparator_i32_i32_d1
  gatherRows := gather_S512x64x1024_S512x64x1_S512x64x1024_2_1_0_0_1_2_111024
  gatherMask := gather_S512x64_S512x64x1_S512x64_n_1_0_0_1_2_11
  bcast_S_B := Facts₀.bcast_S_S512x64
  bcast_B_I := Facts₀.bcast_S512x64_S512x64x1_0_1
  bcast_S_I := Facts₀.bcast_S_S512x64x1
  bcast_S1_S111 := Facts₀.bcast_S1_S1x1x1_2
  bcast_S111_I := Facts₀.bcast_S1x1x1_S512x64x1_0_1_2
  reducesTo_I_B := Facts₀.reducesTo_S512x64x1_S512x64_d2
  h_S := Facts₀.h_S_
  bcast_B_T := Facts₀.bcast_S512x64_S512x64x1024_0_1
  bcast_S_T := Facts₀.bcast_S_S512x64x1024
  shapeCasts_B_I := Facts₀.shapeCasts_S512x64_S512x64x1
  bcast_I_T := Facts₀.bcast_S512x64x1_S512x64x1024_0_1_2

/-- The tail's 56 operations, folded over a valuation and read at the result buffer, are the
    common tail of the reshaped region output and the mask argument. -/
theorem tail_kernel (VK : Valuation τ sig (Elt F)) :
    StableHlo.after (List.flatten [hostOps1, hostOps1_1, hostOps1_2, hostOps1_3, hostOps1_4, hostOps1_5]) VK
        (Proc.devRef .tc main_v13)
      = tail IK
          (fun i => shapeCast main_v3.ty.shape (VK (Proc.devRef .tc main_v2)) shapeCasts_S32768x1024_S512x64x1024 i)
          (VK (Proc.devRef .tc main_arg2)) := by
  simp only [hostOps1, hostOps1_1, hostOps1_2, hostOps1_3, hostOps1_4, hostOps1_5, List.flatten_cons,
    List.flatten_nil, List.append_nil, List.cons_append, List.nil_append]
  after_results_simp
  simp only [cast_eq]
  rfl

end Cert.KernelIdeal.TailK

end
-- ==== Proof.TailEq.lean ====
import proofs.«175531_j57810259804256_1_alg».proof.Proof.TailK
import proofs.«175531_j57810259804256_1_alg».proof.Proof.TailR

/-!
# The two programs' tails are one function

The two programs spell the tail's ingredients in their own vocabularies, but the spellings
denote the same things: the comparators are the same function (signed less-than on the keys),
the gathers' dimension numbers are the same lists, and the shape relations are propositions,
whose proofs are all equal. Hence the two ingredient records are equal, and so are the two
tails.
-/

noncomputable section

namespace Cert.Tail

open Idealize.ShloMosaic
open Cert.KernelIdeal.TailK (IK)
open Cert.ReferenceIdeal.TailR (IR)

/-- The two comparators are the same function. -/
theorem cmp_eq : IK.cmp = IR.cmp := rfl

/-- The two gathers of feature rows have the same dimension numbers. -/
theorem gatherRows_eq : IK.gatherRows = IR.gatherRows := rfl

/-- The two gathers of mask entries have the same dimension numbers. -/
theorem gatherMask_eq : IK.gatherMask = IR.gatherMask := rfl

/-- The two ingredient records are equal: their data agree and their other fields are proofs. -/
theorem ingredients_eq : IK = IR := rfl

/-- The two programs' tails are the same function of the activation and the mask. -/
theorem tail_eq {F : FTy → Type} [FloatOps F] : tail (F := F) IK = tail (F := F) IR :=
  congrArg (fun I => tail (F := F) I) ingredients_eq

end Cert.Tail

end
-- ==== Proof.KernelHost.lean ====
import proofs.«175531_j57810259804256_1_alg».proof.Proof.Gen.KernelIdeal.Frame
import proofs.«175531_j57810259804256_1_alg».proof.Proof.TailK

/-!
# The kernel program's host operations around the region

Before the region the host reshapes the input `f32[512,64,2048]` to `f32[32768,2048]` and
converts the weight to `bf16`; the region finds these two buffers so. After the region the host
tail runs from the region's exit contents: every array of the pipeline at what the region left
in it, every other buffer as the region found it. The result buffer then holds the common tail
of the reshaped output array and of the mask argument as launched.
-/

noncomputable section

namespace Cert.KernelIdeal.KernelHost

open Cert.KernelIdeal Cert.KernelIdeal.Gen Idealize.ShloMosaic Idealize.ShloMosaic.TcCoe Idealize.SL.Sem
  Idealize.ShloMosaic.StableHlo
open Idealize.ShloMosaic.Pipeline (Dat)
open Cert.Tail Cert.KernelIdeal.TailK

variable {F : FTy → Type} [FloatOps F]
variable (m : (ℓ : Loc nD τ sig) → Buf (Elt F) ℓ)

/-- The region finds in the reshaped input's buffer the reshape of the input as launched. -/
theorem V_main_v0 (c : Dev nD) :
    V m c main_v0
      = fun i => shapeCast main_v0.ty.shape (m ((c : Thread nD τ).loc main_arg0)) shapeCasts_S512x64x2048_S32768x2048 i := by
  show StableHlo.after (List.flatten [hostOps0]) (fun b => m (c, b)) (Proc.devRef .tc main_v0) = _
  simp only [hostOps0, List.flatten_cons, List.flatten_nil, List.append_nil]
  after_results_simp

/-- The region finds in the converted weight's buffer the weight as launched, converted to `bf16`. -/
theorem V_main_v1 (c : Dev nD) :
    V m c main_v1 = truncf .bf16 (m ((c : Thread nD τ).loc main_arg4)) bitsLt_bf16_f32 := by
  show StableHlo.after (List.flatten [hostOps0]) (fun b => m (c, b)) (Proc.devRef .tc main_v1) = _
  simp only [hostOps0, List.flatten_cons, List.flatten_nil, List.append_nil]
  after_results_simp

/-- After the host tail the result buffer holds the common tail of the region's output array,
    reshaped, and of the mask argument as launched. -/
theorem kernel_result (c : Dev nD) :
    Pipeline.afterTail₀ cfgs (dats m) 0 (V0 m) [hostOps1, hostOps1_1, hostOps1_2, hostOps1_3, hostOps1_4, hostOps1_5] c main_v13
      = tail IK
          (fun i => shapeCast main_v3.ty.shape ((dats m 0 c).arrAt 5 cfg0.N) shapeCasts_S32768x1024_S512x64x1024 i)
          (m ((c : Thread nD τ).loc main_arg2)) := by
  unfold Pipeline.afterTail₀
  rw [tail_kernel]
  have h2 : Pipeline.withArrays (cfgs 0).spec c (V0 m c) (fun w => (dats m 0 c).arrAt w (cfgs 0).N) (Proc.devRef .tc main_v2)
      = (dats m 0 c).arrAt 5 cfg0.N :=
    Pipeline.withArrays_arr spec0 launch0.win.arr_inj c _ _ 5
  have ha : Pipeline.withArrays (cfgs 0).spec c (V0 m c) (fun w => (dats m 0 c).arrAt w (cfgs 0).N) (Proc.devRef .tc main_arg2)
      = m ((c : Thread nD τ).loc main_arg2) :=
    (Pipeline.withArrays_of_ne _ c (V0 m c) _ main_arg2
      (by exact (by decide : ∀ w, Pipeline.arrRef spec0 w ≠ main_arg2))).trans (V_main_arg2 m c)
  rw [h2, ha]

end Cert.KernelIdeal.KernelHost

end
-- ==== Proof.LnSpec.lean ====
/-
  One row of the computation both programs perform, on the extended reals.

  From one input row x (2048 entries), the weight matrix w (2048 × 1024), the bias b and the two
  normalisation rows g, β (1024 entries each):
    h f   = max (Σ_k x k · w k f + b f) 0                (a dense layer with a cut-off at 0)
    μ     = (Σ_f h f) / 1024                              (the row's mean)
    c f   = h f − μ                                       (the centred row)
    v     = (Σ_f c f · c f) / 1024                        (the row's variance)
    out f = ((c f · rsqrt (v + ε)) · g f) + β f          (normalise, scale, shift)
  The three float literals (0, 1024 and ε) are kept as the bit patterns both programs print; the same
  word on both sides is never evaluated.  Division and the reciprocal square root are the extended
  reals' total ones (`Ideal.div`, `Ideal.rsqrt`).  No law of arithmetic is needed between the two
  programs: they form the same sums of the same terms in the same association, so nothing here depends on
  the inputs being finite.
-/
import Idealize.ShloMosaic.PureOps.Ideal

noncomputable section

namespace Cert.LnSpec

open Idealize.ShloMosaic

/-- The float zero both programs cut off at. -/
def z0 : EReal := Ideal.ofBits .f32 0x00000000#32
/-- The row length 1024 as both programs print it. -/
def c1024 : EReal := Ideal.ofBits .f32 0x44800000#32
/-- The ε both programs add to the variance. -/
def eps : EReal := Ideal.ofBits .f32 0x2B8CBCCC#32

/-- The dense layer with its cut-off at zero, at column `f` of one row. -/
def hid (x : Fin 2048 → EReal) (w : Fin 2048 → Fin 1024 → EReal) (b : Fin 1024 → EReal) (f : Fin 1024) : EReal :=
  max ((∑ k : Fin 2048, x k * w k f) + b f) z0

/-- A row's mean. -/
def mu (h : Fin 1024 → EReal) : EReal := Ideal.div (∑ f : Fin 1024, h f) c1024

/-- A row centred at its mean. -/
def cen (h : Fin 1024 → EReal) (f : Fin 1024) : EReal := h f - mu h

/-- A row's variance: the mean of the centred row's squares. -/
def var (h : Fin 1024 → EReal) : EReal := Ideal.div (∑ f : Fin 1024, cen h f * cen h f) c1024

/-- A row normalised, scaled by `g` and shifted by `β`. -/
def normed (h g β : Fin 1024 → EReal) (f : Fin 1024) : EReal :=
  cen h f * Ideal.rsqrt (var h + eps) * g f + β f

/-- One output row: the dense layer, then the normalisation. -/
def lnRow (x : Fin 2048 → EReal) (w : Fin 2048 → Fin 1024 → EReal) (b g β : Fin 1024 → EReal) (f : Fin 1024) : EReal :=
  normed (hid x w b) g β f

end Cert.LnSpec

end
-- ==== Proof.LibKeepdims.lean ====
/-
  Two layout facts about a column kept after a reduction over the last axis (`keepdims`), for any
  extents: an array of `a` entries viewed as an `a × 1` column reads the entry of its row, and an
  `a × 1` column repeated along `b` columns reads, at `(p, c)`, the column's entry of row `p`.
-/
import Idealize.ShloMosaic.Lib.Pipeline.Value
import Idealize.ShloMosaic.Lib.ValueIdx

namespace Cert.LibKeepdims

open Idealize.ShloMosaic Idealize.ShloMosaic.ValueIdx

variable {α : Type}

/-- An `[a]` array cast to `[a, 1]` reads, at `(i, u)`, the operand at `i`: both positions are the `i`-th in row-major order. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibKeepdims
-- ==== Proof.KernelPay.lean ====
/-
  What the kernel's body stores, read entry by entry.

  At one grid point the body holds a 256 × 2048 block of input rows, the whole weight matrix, and the three
  1024-entry rows b, g, β.  It forms the dense layer with its cut-off at zero (one matrix product over the whole
  contraction axis into a zero accumulator, so entry (p, f) is Σ_k x[p,k] · w[k,f]), then normalises each of the
  256 rows: a lane sum divided by 1024 is the mean, the same of the centred squares the variance, and the
  broadcasts repeat a per-row scalar along the row or a row vector along the rows.  So entry (p, f) of the
  stored block is `lnRow` of the block's row p (LnSpec).  The change of float format on the way into the
  product is the identity on extended reals.
-/
import proofs.«175531_j57810259804256_1_alg».proof.Proof.Gen.KernelIdeal.Skeleton
import proofs.«175531_j57810259804256_1_alg».proof.Proof.LnSpec
import proofs.«175531_j57810259804256_1_alg».proof.Proof.LibKeepdims
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Pay

open Cert.KernelIdeal Cert.KernelIdeal.Gen Idealize.ShloMosaic Idealize.ShloMosaic.ValueIdx Cert.LnSpec Cert.LibKeepdims

/-- The dense layer with its cut-off at zero, as the body forms it from the loaded blocks. -/
def hidK (v0 : FVec Ideal S256x2048 .f32) (v3 : FVec Ideal S2048x1024 .bf16) (v6 : FVec Ideal S1024 .f32) : FVec Ideal S256x1024 .f32 :=
  maximumf
    (addf
      (matmul dot_S256x2048_S2048x1024_S256x1024_1_0_0_1_n_n none
        (truncf .bf16 (shapeCast S256x2048 v0 shapeCasts_S256x2048_S256x2048) bitsLt_bf16_f32)
        (shapeCast S2048x1024 v3 shapeCasts_S2048x1024_S2048x1024) (constant S256x1024 .f32 0x00000000#32))
      (broadcastTo S256x1024 (shapeCast S1x1024 v6 shapeCasts_S1024_S1x1024) broadcasts_S1x1024_S256x1024))
    (broadcast S256x1024 (Scalar.ofBits .f32 0x00000000#32))

/-- The mean of each row of a 256 × 1024 block, kept as a column: the lane sum divided by 1024. -/
def rowMeanK (h : FVec Ideal S256x1024 .f32) : FVec Ideal S256x1 .f32 :=
  divf (shapeCast S256x1 (multiReduction .add [1] S256 h 0x00000000#32 reduces_S256x1024_S256 (.inl rfl) rfl) shapeCasts_S256_S256x1)
    (broadcast S256x1 (Scalar.ofBits .f32 0x44800000#32))

/-- The normalisation of every row of a block `h`, scaled by the row `v28` and shifted by the row `v32`, as the body forms it. -/
def normK (h : FVec Ideal S256x1024 .f32) (v28 v32 : FVec Ideal S1024 .f32) : FVec Ideal S256x1024 .f32 :=
  addf
    (mulf
      (mulf (subf h (broadcastTo S256x1024 (rowMeanK h) broadcasts_S256x1_S256x1024))
        (broadcastTo S256x1024
          (rsqrt (addf
            (rowMeanK (mulf (subf h (broadcastTo S256x1024 (rowMeanK h) broadcasts_S256x1_S256x1024))
              (subf h (broadcastTo S256x1024 (rowMeanK h) broadcasts_S256x1_S256x1024))))
            (broadcast S256x1 (Scalar.ofBits .f32 0x2B8CBCCC#32))))
          broadcasts_S256x1_S256x1024))
      (broadcastTo S256x1024 (shapeCast S1x1024 v28 shapeCasts_S1024_S1x1024) broadcasts_S1x1024_S256x1024))
    (broadcastTo S256x1024 (shapeCast S1x1024 v32 shapeCasts_S1024_S1x1024) broadcasts_S1x1024_S256x1024)

/-- The body's stored value is the normalisation of the dense layer: the printed sequence of operations, regrouped. -/
theorem pay_eq (v0 : FVec Ideal S256x2048 .f32) (v3 : FVec Ideal S2048x1024 .bf16) (v6 v28 v32 : FVec Ideal S1024 .f32) :
    k0_pay1 (F := Ideal) v0 v3 v6 v28 v32 = normK (hidK v0 v3 v6) v28 v32 := rfl

/-- The left factor's row coordinate at output entry `i` is the output's row. -/
theorem lhs_row (i : S256x1024.Idx) (q : dot_S256x2048_S2048x1024_S256x1024_1_0_0_1_n_n.contr.Idx) :
    (dot_S256x2048_S2048x1024_S256x1024_1_0_0_1_n_n.lhsIdx i q 0).val = (i 0).val := by
  unfold DotDims.lhsIdx
  rw [dif_neg (show ¬(0 : Fin S256x2048.rank) ∈ dot_S256x2048_S2048x1024_S256x1024_1_0_0_1_n_n.lhsBatch by decide),
    dif_pos (show (0 : Fin S256x2048.rank) ∈ dot_S256x2048_S2048x1024_S256x1024_1_0_0_1_n_n.lhsNonContracting by decide)]
  rfl

/-- The right factor's column coordinate at output entry `i` is the output's column. -/
theorem rhs_col (i : S256x1024.Idx) (q : dot_S256x2048_S2048x1024_S256x1024_1_0_0_1_n_n.contr.Idx) :
    (dot_S256x2048_S2048x1024_S256x1024_1_0_0_1_n_n.rhsIdx i q 1).val = (i 1).val := by
  unfold DotDims.rhsIdx
  rw [dif_neg (show ¬(1 : Fin S2048x1024.rank) ∈ dot_S256x2048_S2048x1024_S256x1024_1_0_0_1_n_n.rhsBatch by decide),
    dif_pos (show (1 : Fin S2048x1024.rank) ∈ dot_S256x2048_S2048x1024_S256x1024_1_0_0_1_n_n.rhsNonContracting by decide)]
  rfl

/-- The product of a 256 × 2048 block with the 2048 × 1024 matrix into a zero accumulator, at (p, f): the sum over
    the contraction index of row p of the left factor times column f of the right one. -/
theorem matmul_row (l : FVec Ideal S256x2048 .bf16) (r : FVec Ideal S2048x1024 .bf16) (p : Fin 256) (f : Fin 1024) :
    matmul dot_S256x2048_S2048x1024_S256x1024_1_0_0_1_n_n none l r (constant S256x1024 .f32 0x00000000#32) (ix2 p f)
      = ∑ k : Fin 2048, l (ix2 p k) * r (ix2 k f) := by
  simp only [matmul]
  rw [Ideal.matmul_constant_zero_apply,
    ← Equiv.sum_comp (contrEquiv1 dot_S256x2048_S2048x1024_S256x1024_1_0_0_1_n_n 2048 rfl rfl).symm]
  refine Finset.sum_congr rfl fun k _ => ?_
  have hk := contrEquiv1_symm_val dot_S256x2048_S2048x1024_S256x1024_1_0_0_1_n_n 2048 rfl rfl k
  have el : dot_S256x2048_S2048x1024_S256x1024_1_0_0_1_n_n.lhsIdx (ix2 p f)
      ((contrEquiv1 dot_S256x2048_S2048x1024_S256x1024_1_0_0_1_n_n 2048 rfl rfl).symm k) = ix2 p k :=
    funext fun a => Fin.ext (by
      match a with
      | ⟨0, _⟩ => exact lhs_row _ _
      | ⟨1, _⟩ => exact (dot_S256x2048_S2048x1024_S256x1024_1_0_0_1_n_n.lhsIdx_val_of_single rfl _ _).trans hk)
  have er : dot_S256x2048_S2048x1024_S256x1024_1_0_0_1_n_n.rhsIdx (ix2 p f)
      ((contrEquiv1 dot_S256x2048_S2048x1024_S256x1024_1_0_0_1_n_n 2048 rfl rfl).symm k) = ix2 k f :=
    funext fun a => Fin.ext (by
      match a with
      | ⟨0, _⟩ => exact (dot_S256x2048_S2048x1024_S256x1024_1_0_0_1_n_n.rhsIdx_val_of_single rfl _ _).trans hk
      | ⟨1, _⟩ => exact rhs_col _ _)
  rw [el, er]

/-- The dense layer at (p, f) is `hid` of the block's row p. -/
theorem hidK_apply (v0 : FVec Ideal S256x2048 .f32) (v3 : FVec Ideal S2048x1024 .bf16) (v6 : FVec Ideal S1024 .f32)
    (p : Fin 256) (f : Fin 1024) :
    hidK v0 v3 v6 (ix2 p f) = hid (fun k => v0 (ix2 p k)) (fun k f => v3 (ix2 k f)) (fun f => v6 (ix1 f)) f := by
  unfold hidK
  rw [maximumf_apply, addf_apply, broadcast_apply, broadcastTo_1b_ab_apply, shapeCast_a_1a_apply, matmul_row]
  simp only [truncf_apply, shapeCast_self, hid, z0]
  rfl

/-- The row mean at row p: the sum of the row divided by 1024. -/
theorem rowMeanK_apply (h : FVec Ideal S256x1024 .f32) (p : Fin 256) (u : Fin 1) :
    rowMeanK h (ix2 p u) = Ideal.div (∑ f : Fin 1024, h (ix2 p f)) c1024 := by
  unfold rowMeanK
  rw [divf_apply, broadcast_apply, shapeCast_a_a1_apply]
  refine congrArg (fun s => Ideal.div s (Ideal.ofBits .f32 0x44800000#32)) ?_
  refine (Ideal.multiReduction_add_single h 0x00000000#32 reduces_S256x1024_S256 (.inl rfl) rfl (ix1 p)).trans ?_
  refine Finset.sum_congr rfl fun f _ => ?_
  exact congrArg h (funext fun a => Fin.ext (by match a with | ⟨0, _⟩ => rfl | ⟨1, _⟩ => rfl))

/-- The centred block at (p, f). -/
theorem cenK_apply (h : FVec Ideal S256x1024 .f32) (p : Fin 256) (f : Fin 1024) :
    subf h (broadcastTo S256x1024 (rowMeanK h) broadcasts_S256x1_S256x1024) (ix2 p f) = cen (fun f => h (ix2 p f)) f := by
  rw [subf_apply, broadcastTo_a1_ab_apply, rowMeanK_apply]
  rfl

/-- The normalisation at (p, f) is `normed` of the block's row p. -/
theorem normK_apply (h : FVec Ideal S256x1024 .f32) (v28 v32 : FVec Ideal S1024 .f32) (p : Fin 256) (f : Fin 1024) :
    normK h v28 v32 (ix2 p f) = normed (fun f => h (ix2 p f)) (fun f => v28 (ix1 f)) (fun f => v32 (ix1 f)) f := by
  unfold normK
  rw [addf_apply, mulf_apply, mulf_apply, cenK_apply, broadcastTo_a1_ab_apply, broadcastTo_1b_ab_apply,
    broadcastTo_1b_ab_apply, shapeCast_a_1a_apply, shapeCast_a_1a_apply]
  show cen _ f * FloatOps.rsqrt (addf (rowMeanK _) (broadcast S256x1 (Scalar.ofBits .f32 0x2B8CBCCC#32)) (ix2 p (0 : Fin 1))) * _ + _ = _
  rw [addf_apply, broadcast_apply, rowMeanK_apply]
  simp only [mulf_apply, cenK_apply, Ideal.rsqrt_def, normed, var]
  rfl

/-- Entry (p, f) of what the body stores is `lnRow` of row p of the loaded input block. -/
theorem pay_apply (v0 : FVec Ideal S256x2048 .f32) (v3 : FVec Ideal S2048x1024 .bf16) (v6 v28 v32 : FVec Ideal S1024 .f32)
    (p : Fin 256) (f : Fin 1024) :
    k0_pay1 (F := Ideal) v0 v3 v6 v28 v32 (ix2 p f)
      = lnRow (fun k => v0 (ix2 p k)) (fun k f => v3 (ix2 k f)) (fun f => v6 (ix1 f)) (fun f => v28 (ix1 f))
          (fun f => v32 (ix1 f)) f := by
  rw [pay_eq, normK_apply]
  simp only [hidK_apply, lnRow]

end Cert.KernelIdeal.Pay

end
-- ==== Proof.KernelArr.lean ====
/-
  The region's output array as one function of the arrays the region finds.

  Grid point t (of 128) handles rows 256·t … 256·t + 255: its input block is those rows of the 32768 × 2048
  array, the weight matrix and the three 1024-entry rows are the same whole arrays at every point, and it
  writes back rows 256·t … 256·t + 255 of the 32768 × 1024 output.  By KernelPay the written entry (p, f) is
  `lnRow` of input row p of the block, that is of row 256·t + p of the whole input.  So every write-back is a
  block of the one function `G` below, the 128 blocks tile the output (row r lies in the block of point r / 256),
  and the output array ends at `G`.
-/
import proofs.«175531_j57810259804256_1_alg».proof.Proof.Gen.KernelIdeal.Frame
import proofs.«175531_j57810259804256_1_alg».proof.Proof.KernelPay
import Idealize.ShloMosaic.Lib.Pipeline.Value

noncomputable section

namespace Cert.KernelIdeal.Arr

open Cert.KernelIdeal Cert.KernelIdeal.Gen Cert.KernelIdeal.Pay Idealize.ShloMosaic Idealize.ShloMosaic.TcCoe
open Idealize.ShloMosaic.ValueIdx Idealize.SL.Sem Cert.LnSpec
open Idealize.ShloMosaic.Pipeline (Dat)

variable (m : (ℓ : Loc nD τ sig) → Buf (Elt Ideal) ℓ)

theorem hz2 : (![0, 0] : Fin 2 → Nat) = fun _ => 0 := funext fun a => by fin_cases a <;> rfl
theorem hz1 : (![0] : Fin 1 → Nat) = fun _ => 0 := funext fun a => by fin_cases a <;> rfl

/-- The output array as one function: entry (r, f) is `lnRow` of row r of the input array. -/
def G (X : S32768x2048.Idx → EReal) (W : S2048x1024.Idx → EReal) (b g β : S1024.Idx → EReal) : S32768x1024.Idx → EReal :=
  fun i => lnRow (fun k => X (ix2 (⟨(i 0).val, (i 0).isLt⟩ : Fin 32768) k)) (fun k f => W (ix2 k f)) (fun f => b (ix1 f))
    (fun f => g (ix1 f)) (fun f => β (ix1 f)) ⟨(i 1).val, (i 1).isLt⟩

/-- `lnRow` of equal data is equal. -/
theorem lnRow_congr {x x' : Fin 2048 → EReal} {w w' : Fin 2048 → Fin 1024 → EReal} {b b' g g' β β' : Fin 1024 → EReal}
    {f f' : Fin 1024} (hx : x = x') (hw : w = w') (hb : b = b') (hg : g = g') (hβ : β = β') (hf : f = f') :
    lnRow x w b g β f = lnRow x' w' b' g' β' f' := by
  subst hx hw hb hg hβ hf; rfl

/-- What the body stores, at any entry of the block. -/
theorem pay_at (v0 : FVec Ideal S256x2048 .f32) (v3 : FVec Ideal S2048x1024 .bf16) (v6 v28 v32 : FVec Ideal S1024 .f32)
    (j : S256x1024.Idx) :
    k0_pay1 (F := Ideal) v0 v3 v6 v28 v32 j
      = lnRow (fun k => v0 (ix2 (⟨(j 0).val, (j 0).isLt⟩ : Fin 256) k)) (fun k f => v3 (ix2 k f)) (fun f => v6 (ix1 f))
          (fun f => v28 (ix1 f)) (fun f => v32 (ix1 f)) ⟨(j 1).val, (j 1).isLt⟩ := by
  obtain ⟨p, f, rfl⟩ : ∃ (p : Fin 256) (f : Fin 1024), j = ix2 p f := ⟨j 0, j 1, eq_ix2 j⟩
  exact pay_apply v0 v3 v6 v28 v32 p f

/-- The printed index maps over the grid: the input block moves with the output block along the rows, every other
    block index is zero, and the output's row-block index at point t is t. -/
theorem idx_facts : ∀ t : Fin cfg0.N,
    win0_0.index t (0 : Fin 2) = win0_5.index t (0 : Fin 2) ∧ win0_0.index t (1 : Fin 2) = 0
    ∧ win0_1.index t (0 : Fin 2) = 0 ∧ win0_1.index t (1 : Fin 2) = 0
    ∧ win0_2.index t (0 : Fin 1) = 0 ∧ win0_3.index t (0 : Fin 1) = 0 ∧ win0_4.index t (0 : Fin 1) = 0
    ∧ win0_5.index t (1 : Fin 2) = 0 ∧ win0_5.index t (0 : Fin 2) = t.val :=
  (by decide +kernel : ∀ t : Fin grid0.N, _)

/-- Row p of the input block at point t is row (t's row-block index)·256 + p of the input array. -/
theorem read0 (c : Dev nD) (t : Fin cfg0.N) (p : Fin 256) (k : Fin 2048) (R : Fin 32768)
    (hR : R.val = win0_5.index t (0 : Fin 2) * 256 + p.val) :
    (iblk m c 0 t : FVec Ideal S256x2048 .f32) (ix2 p k) = V m c main_v0 (ix2 R k) := by
  obtain ⟨e0, e1, -⟩ := idx_facts t
  show V m c main_v0 (((cfg0.win 0).blk t).view.emb (ix2 p k)) = V m c main_v0 (ix2 R k)
  refine congrArg (V m c main_v0) (funext fun a => Fin.ext ?_)
  match a with
  | ⟨0, _⟩ => show win0_0.index t (0 : Fin 2) * 256 + 1 * p.val = R.val; omega
  | ⟨1, _⟩ => show win0_0.index t (1 : Fin 2) * 2048 + 1 * k.val = k.val; omega

/-- The weight block at every point is the whole weight array. -/
theorem read1 (c : Dev nD) (t : Fin cfg0.N) (k : Fin 2048) (f : Fin 1024) :
    (iblk m c 1 t : FVec Ideal S2048x1024 .bf16) (ix2 k f) = V m c main_v1 (ix2 k f) := by
  obtain ⟨-, -, e2, e3, -⟩ := idx_facts t
  show V m c main_v1 (((cfg0.win 1).blk t).view.emb (ix2 k f)) = V m c main_v1 (ix2 k f)
  refine congrArg (V m c main_v1) (funext fun a => Fin.ext ?_)
  match a with
  | ⟨0, _⟩ => show win0_1.index t (0 : Fin 2) * 2048 + 1 * k.val = k.val; omega
  | ⟨1, _⟩ => show win0_1.index t (1 : Fin 2) * 1024 + 1 * f.val = f.val; omega

/-- The bias block at every point is the whole bias row; likewise the scale and the shift rows. -/
theorem read2 (c : Dev nD) (t : Fin cfg0.N) (f : Fin 1024) :
    (iblk m c 2 t : FVec Ideal S1024 .f32) (ix1 f) = V m c main_arg5 (ix1 f) := by
  obtain ⟨-, -, -, -, e4, -⟩ := idx_facts t
  show V m c main_arg5 (((cfg0.win 2).blk t).view.emb (ix1 f)) = V m c main_arg5 (ix1 f)
  refine congrArg (V m c main_arg5) (funext fun a => Fin.ext ?_)
  match a with
  | ⟨0, _⟩ => show win0_2.index t (0 : Fin 1) * 1024 + 1 * f.val = f.val; omega
theorem read3 (c : Dev nD) (t : Fin cfg0.N) (f : Fin 1024) :
    (iblk m c 3 t : FVec Ideal S1024 .f32) (ix1 f) = V m c main_arg6 (ix1 f) := by
  obtain ⟨-, -, -, -, -, e5, -⟩ := idx_facts t
  show V m c main_arg6 (((cfg0.win 3).blk t).view.emb (ix1 f)) = V m c main_arg6 (ix1 f)
  refine congrArg (V m c main_arg6) (funext fun a => Fin.ext ?_)
  match a with
  | ⟨0, _⟩ => show win0_3.index t (0 : Fin 1) * 1024 + 1 * f.val = f.val; omega
theorem read4 (c : Dev nD) (t : Fin cfg0.N) (f : Fin 1024) :
    (iblk m c 4 t : FVec Ideal S1024 .f32) (ix1 f) = V m c main_arg7 (ix1 f) := by
  obtain ⟨-, -, -, -, -, -, e6, -⟩ := idx_facts t
  show V m c main_arg7 (((cfg0.win 4).blk t).view.emb (ix1 f)) = V m c main_arg7 (ix1 f)
  refine congrArg (V m c main_arg7) (funext fun a => Fin.ext ?_)
  match a with
  | ⟨0, _⟩ => show win0_4.index t (0 : Fin 1) * 1024 + 1 * f.val = f.val; omega

/-- What point t writes back is block t of `G` of the arrays as the region finds them. -/
theorem flushed_eq (c : Dev nD) (t : Fin cfg0.N) :
    (dats m 0 c).flushed 5 t = ((cfg0.win 5).blk t).view.read (Elt Ideal)
      (G (V m c main_v0) (V m c main_v1) (V m c main_arg5) (V m c main_arg6) (V m c main_arg7)) := by
  show (cfg0.win 5).cut (grid0.coords t) ((dats m 0 c).after 5 t) = _
  rw [after0_5]
  unfold out0_5
  rw [View.canon_unit_zero hz2]
  simp only [View.ld_unit_zero (S := S256x2048) hz2, View.ld_unit_zero (S := S2048x1024) hz2, View.ld_unit_zero (S := S1024) hz1]
  obtain ⟨-, -, -, -, -, -, -, e7, -⟩ := idx_facts t
  funext j
  show k0_pay1 (F := Ideal) (iblk m c 0 t) (iblk m c 1 t) (iblk m c 2 t) (iblk m c 3 t) (iblk m c 4 t) j
      = G (V m c main_v0) (V m c main_v1) (V m c main_arg5) (V m c main_arg6) (V m c main_arg7) (((cfg0.win 5).blk t).view.emb j)
  refine (pay_at (iblk m c 0 t) (iblk m c 1 t) (iblk m c 2 t) (iblk m c 3 t) (iblk m c 4 t) j).trans ?_
  unfold G
  refine lnRow_congr (funext fun k => ?_) (funext fun k => funext fun f => ?_) (funext fun f => ?_) (funext fun f => ?_)
    (funext fun f => ?_) (Fin.ext ?_)
  · refine read0 m c t _ k _ ?_
    show win0_5.index t (0 : Fin 2) * 256 + 1 * (j 0).val = win0_5.index t (0 : Fin 2) * 256 + (j 0).val
    omega
  · exact read1 m c t k f
  · exact read2 m c t f
  · exact read3 m c t f
  · exact read4 m c t f
  · show (j 1).val = win0_5.index t (1 : Fin 2) * 1024 + 1 * (j 1).val
    omega

/-- An index of the output array is in point t's block iff each coordinate is in the block's range on its axis. -/
theorem mem_blk (t : Fin cfg0.N) (i : S32768x1024.Idx) :
    i ∈ ((cfg0.win 5).blk t).view.set ↔ ∀ a : Fin 2, win0_5.index t a * S256x1024.size a ≤ (i a).val
      ∧ (i a).val < win0_5.index t a * S256x1024.size a + S256x1024.size a := by
  show i ∈ ((View.whole main_v2).slice (win0_5.rect t)).set ↔ _
  rw [View.set_slice_whole, Rect.mem_set_unit]
  exact Iff.rfl

/-- Every entry of the output lies in some point's block: row r in the block of point r / 256. -/
theorem cover (i : S32768x1024.Idx) : ∃ t : Fin cfg0.N, (cfg0.win 5).flush t = true ∧ i ∈ ((cfg0.win 5).blk t).view.set := by
  have hN : cfg0.N = 128 := N_0
  have hi0 : (i 0).val < 32768 := (i 0).isLt
  have hi1 : (i 1).val < 1024 := (i 1).isLt
  obtain ⟨t, ht⟩ : ∃ t : Fin cfg0.N, t.val = (i 0).val / 256 := ⟨⟨(i 0).val / 256, by rw [hN]; omega⟩, rfl⟩
  obtain ⟨-, -, -, -, -, -, -, e7, e8⟩ := idx_facts t
  refine ⟨t, flush0_5 t, ?_⟩
  rw [mem_blk]
  intro a
  match a with
  | ⟨0, _⟩ =>
    show win0_5.index t (0 : Fin 2) * 256 ≤ (i 0).val ∧ (i 0).val < win0_5.index t (0 : Fin 2) * 256 + 256
    omega
  | ⟨1, _⟩ =>
    show win0_5.index t (1 : Fin 2) * 1024 ≤ (i 1).val ∧ (i 1).val < win0_5.index t (1 : Fin 2) * 1024 + 1024
    omega

/-- The output array after the region is `G` of the arrays the region finds. -/
theorem final (c : Dev nD) :
    (dats m 0 c).arrAt 5 cfg0.N = G (V m c main_v0) (V m c main_v1) (V m c main_arg5) (V m c main_arg6) (V m c main_arg7) :=
  (dats m 0 c).arrAt_eq_of_cover 5 _ (fun t _ => flushed_eq m c t) (cover)

end Cert.KernelIdeal.Arr

end
-- ==== Proof.RefLN.lean ====
/-
  The reference's normalised dense layer, read entry by entry.

  The reference computes, for every batch entry b and box n, the row `lnRow` of the input row x[b, n, ·]
  (LnSpec): its einsum contracts the last axis of x against the first axis of W, entry (b, n, f) being
  Σ_k x[b,n,k] · W[k,f]; the two sums over the feature axis start from the float zero, which adds
  nothing; every broadcast repeats a row vector along (b, n) or a per-row scalar along f.
-/
import proofs.«175531_j57810259804256_1_alg».proof.Proof.RefRead
import proofs.«175531_j57810259804256_1_alg».proof.Proof.LnSpec

noncomputable section

namespace Cert.ReferenceIdeal.RefLN

open Cert.ReferenceIdeal Cert.ReferenceIdeal.ReadP Idealize.ShloMosaic Idealize.ShloMosaic.ValueIdx Cert.LnSpec

variable (x0 : FVec Ideal S512x64x2048 .f32) (x4 : FVec Ideal S2048x1024 .f32) (x5 x6 x7 : FVec Ideal S1024 .f32)

/-- The dense layer with its cut-off, at (b, n, f): the contraction runs over the input row (b, n) and column f of W. -/
theorem ref_hid (b : Fin 512) (n : Fin 64) (f : Fin 1024) :
    val_main_v4 (F := Ideal) x0 x4 x5 (ix3 b n f)
      = hid (fun k => x0 (ix3 b n k)) (fun k f => x4 (ix2 k f)) (fun f => x5 (ix1 f)) f := by
  rw [val_main_v4_apply, val_main_v3_apply, val_main_v0_apply, val_main_v2_apply, val_main_v1_apply,
    val_main_call0_v0_apply, val_main_call0_cst_apply]
  have e1 : ∀ k, lidx_main_v0 (ix3 b n f) k = ix3 b n k := fun k => funext fun a => Fin.ext (by
    match a with | ⟨0, _⟩ => rfl | ⟨1, _⟩ => rfl | ⟨2, _⟩ => rfl)
  have e2 : ∀ k, ridx_main_v0 (ix3 b n f) k = ix2 k f := fun k => funext fun a => Fin.ext (by
    match a with | ⟨0, _⟩ => rfl | ⟨1, _⟩ => rfl)
  have e3 : idx_main_v1 (idx_main_v2 (ix3 b n f)) = ix1 f := funext fun a => Fin.ext (by
    match a with | ⟨0, _⟩ => rfl)
  simp only [e1, e2, e3, Ideal.addf_def, Ideal.maximumf_def, Ideal.ofBits_def, hid, z0]

/-- The row mean, kept as a column: the sum over the feature axis starts from zero. -/
theorem ref_mu (b : Fin 512) (n : Fin 64) (u : Fin 1) :
    val_main_v8 (F := Ideal) x0 x4 x5 (ix3 b n u)
      = mu (hid (fun k => x0 (ix3 b n k)) (fun k f => x4 (ix2 k f)) (fun f => x5 (ix1 f))) := by
  rw [val_main_v8_apply, val_main_v6_apply, val_main_v7_apply, val_main_cst_0_apply]
  have e1 : idx_main_v6 (ix3 b n u) = ix2 b n := funext fun a => Fin.ext (by
    match a with | ⟨0, _⟩ => rfl | ⟨1, _⟩ => rfl)
  have e2 : ∀ k, idx_main_v5 (ix2 b n) k = ix3 b n k := fun k => funext fun a => Fin.ext (by
    match a with | ⟨0, _⟩ => rfl | ⟨1, _⟩ => rfl | ⟨2, _⟩ => rfl)
  rw [e1, val_main_v5_apply, val_main_cst_apply]
  simp only [e2, ref_hid x0 x4 x5, Ideal.hostDivf_def, Ideal.ofBits_def, Ideal.ofBits_zero_f32, zero_add, mu, c1024]

/-- The centred row, as the reference forms it before squaring. -/
theorem ref_cen10 (b : Fin 512) (n : Fin 64) (f : Fin 1024) :
    val_main_v10 (F := Ideal) x0 x4 x5 (ix3 b n f)
      = cen (hid (fun k => x0 (ix3 b n k)) (fun k f => x4 (ix2 k f)) (fun f => x5 (ix1 f))) f := by
  rw [val_main_v10_apply, val_main_v9_apply]
  have e : idx_main_v9 (ix3 b n f) = ix3 b n (0 : Fin 1) := funext fun a => Fin.ext (by
    match a with | ⟨0, _⟩ => rfl | ⟨1, _⟩ => rfl | ⟨2, _⟩ => rfl)
  rw [e, ref_mu, ref_hid]
  simp only [Ideal.subf_def, cen]

/-- The centred row, as the reference forms it again before scaling: the same value. -/
theorem ref_cen17 (b : Fin 512) (n : Fin 64) (f : Fin 1024) :
    val_main_v17 (F := Ideal) x0 x4 x5 (ix3 b n f)
      = cen (hid (fun k => x0 (ix3 b n k)) (fun k f => x4 (ix2 k f)) (fun f => x5 (ix1 f))) f := by
  rw [val_main_v17_apply, val_main_v16_apply]
  have e : idx_main_v16 (ix3 b n f) = ix3 b n (0 : Fin 1) := funext fun a => Fin.ext (by
    match a with | ⟨0, _⟩ => rfl | ⟨1, _⟩ => rfl | ⟨2, _⟩ => rfl)
  rw [e, ref_mu, ref_hid]
  simp only [Ideal.subf_def, cen]

/-- The row variance, kept as a column. -/
theorem ref_var (b : Fin 512) (n : Fin 64) (u : Fin 1) :
    val_main_v15 (F := Ideal) x0 x4 x5 (ix3 b n u)
      = var (hid (fun k => x0 (ix3 b n k)) (fun k f => x4 (ix2 k f)) (fun f => x5 (ix1 f))) := by
  rw [val_main_v15_apply, val_main_v13_apply, val_main_v14_apply, val_main_cst_2_apply]
  have e1 : idx_main_v13 (ix3 b n u) = ix2 b n := funext fun a => Fin.ext (by
    match a with | ⟨0, _⟩ => rfl | ⟨1, _⟩ => rfl)
  have e2 : ∀ k, idx_main_v12 (ix2 b n) k = ix3 b n k := fun k => funext fun a => Fin.ext (by
    match a with | ⟨0, _⟩ => rfl | ⟨1, _⟩ => rfl | ⟨2, _⟩ => rfl)
  rw [e1, val_main_v12_apply, val_main_cst_1_apply]
  simp only [e2, val_main_v11_apply, ref_cen10 x0 x4 x5, Ideal.mulf_def, Ideal.hostDivf_def, Ideal.ofBits_def,
    Ideal.ofBits_zero_f32, zero_add, var, c1024]

/-- The reference's normalised dense layer at (b, n, f) is `lnRow` of the input row (b, n). -/
theorem ref_ln (b : Fin 512) (n : Fin 64) (f : Fin 1024) :
    val_main_v28 (F := Ideal) x0 x4 x5 x6 x7 (ix3 b n f)
      = lnRow (fun k => x0 (ix3 b n k)) (fun k f => x4 (ix2 k f)) (fun f => x5 (ix1 f)) (fun f => x6 (ix1 f))
          (fun f => x7 (ix1 f)) f := by
  rw [val_main_v28_apply, val_main_v25_apply, val_main_v22_apply, val_main_v21_apply, val_main_v20_apply,
    val_main_v19_apply, val_main_v18_apply, val_main_cst_3_apply, val_main_v24_apply, val_main_v23_apply,
    val_main_v27_apply, val_main_v26_apply]
  have e1 : idx_main_v21 (ix3 b n f) = ix3 b n (0 : Fin 1) := funext fun a => Fin.ext (by
    match a with | ⟨0, _⟩ => rfl | ⟨1, _⟩ => rfl | ⟨2, _⟩ => rfl)
  have e2 : idx_main_v23 (idx_main_v24 (ix3 b n f)) = ix1 f := funext fun a => Fin.ext (by
    match a with | ⟨0, _⟩ => rfl)
  have e3 : idx_main_v26 (idx_main_v27 (ix3 b n f)) = ix1 f := funext fun a => Fin.ext (by
    match a with | ⟨0, _⟩ => rfl)
  rw [e1, e2, e3, ref_cen17, ref_var]
  simp only [Ideal.addf_def, Ideal.mulf_def, Ideal.hostUnary_rsqrt_def, Ideal.ofBits_def, lnRow, normed, eps]

end Cert.ReferenceIdeal.RefLN

end
-- ==== Proof.Bridge.lean ====
/-
  The two normalised dense layers are one array.

  The kernel's program flattens the input x[b, n, ·] to rows r = 64·b + n, computes the 32768 × 1024 array `G`
  row by row (KernelArr), and views it again as 512 × 64 × 1024: entry (b, n, f) of that view is entry
  (64·b + n, f) of `G`, which is `lnRow` of flattened row 64·b + n, that is of x[b, n, ·].  The reference's
  stage at (b, n, f) is `lnRow` of x[b, n, ·] (RefLN).  The weight matrix reaches the kernel through a change of
  float format, the identity on extended reals.  Both flattenings are row-major, so the positions agree:
  (64·b + n)·1024 + f = (b·64 + n)·1024 + f, and the same with 2048 for the input.
-/
import proofs.«175531_j57810259804256_1_alg».proof.Proof.KernelArr
import proofs.«175531_j57810259804256_1_alg».proof.Proof.RefLN
import Idealize.ShloMosaic.Lib.Pipeline.Value

noncomputable section

namespace Cert.Bridge

open Idealize.ShloMosaic Idealize.ShloMosaic.ValueIdx Cert.LnSpec

/-- Viewing `G` of the flattened input as 512 × 64 × 1024 gives the reference's normalised dense layer. -/
theorem ln_eq (x0 : FVec Ideal ⟨3, ![512, 64, 2048]⟩ .f32) (x4 : FVec Ideal ⟨2, ![2048, 1024]⟩ .f32)
    (x5 x6 x7 : FVec Ideal ⟨1, ![1024]⟩ .f32)
    (hin : (⟨3, ![512, 64, 2048]⟩ : Shape).ShapeCasts ⟨2, ![32768, 2048]⟩)
    (hout : (⟨2, ![32768, 1024]⟩ : Shape).ShapeCasts ⟨3, ![512, 64, 1024]⟩)
    (hlt : FTy.bits .bf16 < FTy.bits .f32) :
    (fun i => shapeCast ⟨3, ![512, 64, 1024]⟩
        (Cert.KernelIdeal.Arr.G (shapeCast ⟨2, ![32768, 2048]⟩ x0 hin) (truncf .bf16 x4 hlt) x5 x6 x7) hout i)
      = Cert.ReferenceIdeal.ReadP.val_main_v28 (F := Ideal) x0 x4 x5 x6 x7 := by
  funext i
  obtain ⟨b, n, f, rfl⟩ : ∃ (b : Fin 512) (n : Fin 64) (f : Fin 1024), i = ix3 b n f := ⟨i 0, i 1, i 2, eq_ix3 i⟩
  have hr : b.val * 64 + n.val < 32768 := by have := b.isLt; have := n.isLt; omega
  rw [Cert.ReferenceIdeal.RefLN.ref_ln]
  refine (shapeCast_apply _ hout (ix3 b n f) (ix2 (⟨b.val * 64 + n.val, hr⟩ : Fin 32768) f) ?_).trans ?_
  · rw [Shape.rowMajor_val_two, Shape.rowMajor_val_three]
    rfl
  · unfold Cert.KernelIdeal.Arr.G
    refine Cert.KernelIdeal.Arr.lnRow_congr (funext fun k => ?_) (funext fun k => funext fun f => ?_) rfl rfl rfl rfl
    · refine shapeCast_apply x0 hin (ix2 (⟨b.val * 64 + n.val, hr⟩ : Fin 32768) k) (ix3 b n k) ?_
      rw [Shape.rowMajor_val_two, Shape.rowMajor_val_three]
      rfl
    · rfl

end Cert.Bridge

end
-- ==== Proof.KernelRun.lean ====
/-
  The kernel program's run, with its result named.

  After the region the output array holds `G` of what the region found (KernelArr); the region found the
  flattened input and the weight in its narrower format (the two host operations before it) and the three
  rows as launched; viewed again as 512 × 64 × 1024 that array is the reference's normalised dense layer of
  the arguments (Bridge).  The host operations after the region then apply the common tail (TailSpec) to it and
  to the mask.  So the result buffer ends at `result`: the tail of the reference's own stage of the launch
  arguments.  The arguments end unchanged, as in the frame.
-/
import proofs.«175531_j57810259804256_1_alg».proof.Proof.KernelHost
import proofs.«175531_j57810259804256_1_alg».proof.Proof.KernelArr
import proofs.«175531_j57810259804256_1_alg».proof.Proof.Bridge

noncomputable section

namespace Cert.KernelIdeal.RunValue

open Cert.KernelIdeal Cert.KernelIdeal.Gen Idealize.ShloMosaic Idealize.ShloMosaic.TcCoe Idealize.SL.Sem
open Idealize.ShloMosaic.Pipeline (Dat)
open Cert.Tail Cert.KernelIdeal.TailK

variable (m : (ℓ : Loc nD τ sig) → Buf (Elt Ideal) ℓ) (ρ : Dev nD → PrngReg)

/-- What both programs end with on core `c`: the common tail of the normalised dense layer of the launch arguments and of the mask. -/
def result (c : Dev nD) : Buf (Elt Ideal) ((c.tc : Thread nD τ).loc main_v13) :=
  tail IK
    (Cert.ReferenceIdeal.ReadP.val_main_v28 (F := Ideal) (m ((c.tc : Thread nD τ).loc main_arg0)) (m ((c.tc : Thread nD τ).loc main_arg4))
      (m ((c.tc : Thread nD τ).loc main_arg5)) (m ((c.tc : Thread nD τ).loc main_arg6)) (m ((c.tc : Thread nD τ).loc main_arg7)))
    (m ((c.tc : Thread nD τ).loc main_arg2))

/-- The result buffer after the host tail is `result`. -/
theorem result_eq (c : Dev nD) :
    Pipeline.afterTail₀ cfgs (dats m) 0 (V0 m) [hostOps1, hostOps1_1, hostOps1_2, hostOps1_3, hostOps1_4, hostOps1_5] c main_v13
      = result m c := by
  rw [Cert.KernelIdeal.KernelHost.kernel_result m c]
  unfold result
  refine congrArg (fun ln => tail IK ln (m ((c.tc : Thread nD τ).loc main_arg2))) ?_
  rw [Cert.KernelIdeal.Arr.final m c, Cert.KernelIdeal.KernelHost.V_main_v0 m c, Cert.KernelIdeal.KernelHost.V_main_v1 m c,
    V_main_arg5 m c, V_main_arg6 m c, V_main_arg7 m c]
  exact Cert.Bridge.ln_eq _ _ _ _ _ _ _ _

/-- Every weakly fair execution of the kernel's program ends with the result buffer at `result` and the arguments unchanged. -/
theorem run : θ_run defs (onTc (τ := τ) (main (F := Ideal))) ⟨m, fun _ => 0, ρ⟩ (fun r => ∀ c : Dev nD,
      r.2.mem ((c.tc : Thread nD τ).loc main_v13) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨((h c).2 main_v13 (Pipeline.mem_restRefs_of main_v13 (by decide) (by decide))).trans (result_eq m c),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c)),
      ((h c).1 2).trans (((dats m 0 c).arrAt_in 2 rfl _).trans ((A_eq m c 2).trans (V_main_arg5 m c))),
      ((h c).1 3).trans (((dats m 0 c).arrAt_in 3 rfl _).trans ((A_eq m c 3).trans (V_main_arg6 m c))),
      ((h c).1 4).trans (((dats m 0 c).arrAt_in 4 rfl _).trans ((A_eq m c 4).trans (V_main_arg7 m c)))⟩) (run_main m ρ)

end Cert.KernelIdeal.RunValue

end
-- ==== Proof.lean ====
/-
  The kernel's program and its jnp reference end with equal results on the extended reals.

  Both compute, for each of the 512 × 64 boxes, one row of a dense layer (2048 → 1024) with a cut-off at zero
  followed by a normalisation of the row (mean, variance, reciprocal square root with the same ε, scale, shift):
  the function `lnRow` of LnSpec.  The kernel does it on the input flattened to 32768 rows, 256 rows per grid
  point, with one matrix product per point; the reference with one contraction over the whole input.  On the
  extended reals these are the same sums of the same products (KernelPay, KernelArr, RefLN, Bridge).  Both
  programs then apply the same tail — a stable argsort of the mask, two gathers along it and a product with the
  gathered mask — to that array and to the mask (TailSpec, TailK, TailR, TailEq).  No arithmetic law relates
  the two sides, so the precondition (finite inputs) is never opened.

  The three frame claims: the kernel's two programs by their generated frame runs; the reference by its run
  (RefRun) with the result dropped.  The idealized kernel is the kernel's own text read on the extended reals:
  the ideal pass rewrote nothing, so that claim is `True`.
-/
import proofs.«175531_j57810259804256_1_alg».proof.Defs
import proofs.«175531_j57810259804256_1_alg».proof.Proof.Gen.Kernel
import proofs.«175531_j57810259804256_1_alg».proof.Proof.Gen.Kernel.Skeleton
import proofs.«175531_j57810259804256_1_alg».proof.Proof.Gen.Kernel.Launch
import proofs.«175531_j57810259804256_1_alg».proof.Proof.Gen.Kernel.Points
import proofs.«175531_j57810259804256_1_alg».proof.Proof.Gen.Kernel.Frame
import proofs.«175531_j57810259804256_1_alg».proof.Proof.Gen.KernelIdeal
import proofs.«175531_j57810259804256_1_alg».proof.Proof.Gen.KernelIdeal.Skeleton
import proofs.«175531_j57810259804256_1_alg».proof.Proof.Gen.KernelIdeal.Launch
import proofs.«175531_j57810259804256_1_alg».proof.Proof.Gen.KernelIdeal.Points
import proofs.«175531_j57810259804256_1_alg».proof.Proof.Gen.KernelIdeal.Frame
import proofs.«175531_j57810259804256_1_alg».proof.Proof.Gen.ReferenceIdeal
import proofs.«175531_j57810259804256_1_alg».proof.Proof.Gen.Pre_finite_inputs
import proofs.«175531_j57810259804256_1_alg».proof.Proof.RefRun
import proofs.«175531_j57810259804256_1_alg».proof.Proof.RefLnRun
import proofs.«175531_j57810259804256_1_alg».proof.Proof.TailEq
import proofs.«175531_j57810259804256_1_alg».proof.Proof.KernelRun
import Idealize.ShloMosaic.Adequacy
import Idealize.ShloMosaic.Init

noncomputable section

namespace Cert.Proof

open Idealize.ShloMosaic Idealize.SL.Sem

/-- The kernel as printed runs and keeps its arguments: its generated frame run. -/
theorem frame_k : Cert.frame_Kernel := fun m ρ _ => Cert.Kernel.Gen.frame m ρ

/-- The idealized kernel runs and keeps its arguments: its generated frame run. -/
theorem frame_ki : Cert.frame_KernelIdeal := fun m ρ _ => Cert.KernelIdeal.Gen.frame m ρ

/-- The reference runs and keeps its arguments: its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- The ideal pass rewrote no operation. -/
theorem preserves : Cert.preserves_Kernel_KernelIdeal := trivial

/-- From memories agreeing on the arguments both programs end with the common tail of the normalised dense layer of
    the arguments: the kernel's program by its run (KernelRun), the reference because its last 55 operations are the tail
    of its first 36, which are that layer. -/
theorem algebraic : Cert.algebraic_KernelIdeal_ReferenceIdeal := by
  intro m ρ m' ρ' _ hagree
  refine ⟨fun c => Cert.KernelIdeal.RunValue.result m c, Cert.KernelIdeal.RunValue.run m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.TailR.tail_reference, Cert.ReferenceIdeal.LnRun.ln_reference, ← Cert.Tail.tail_eq (F := Ideal)]
  obtain ⟨h0, -, h2, -, h4, h5, h6, h7⟩ := hagree c
  show Cert.Tail.tail Cert.KernelIdeal.TailK.IK
      (Cert.ReferenceIdeal.ReadP.val_main_v28 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg4))
        (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)))
      (m' ((c.tc : Thread Cert.ReferenceIdeal.nD Cert.ReferenceIdeal.τ).loc Cert.ReferenceIdeal.main_arg2)) = _
  rw [h0, h2, h4, h5, h6, h7]
  rfl

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
